-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x600000 : Shape := ⟨2, ![2, 600000]⟩
abbrev S50000 : Shape := ⟨1, ![50000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg9 : FVec F S256x128 .f32) (main_arg10 : FVec F S128 .f32) (main_arg11 : FVec F S128x16 .f32) (main_arg12 : FVec F S16 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x16 .f32 := Host.absf main_arg11
  let main_cst_16 : FVec F S_ .f32 := constant S_ .f32 0x7F800000#32
  let main_v45 : FVec F S128x16 .f32 := broadcastInDim S128x16 ![] bcast_S_S128x16 main_cst_16
  let main_v46 : IVec S128x16 1 := cmpf .olt main_v44 main_v45
  let main_c_17 : IVec S_ 1 := constantI S_ 1 1#1
  let main_v47 : IVec S_ 1 := (fun x v => Host.reduce IntOp.andi x v reducesTo_S128x16_S_d0_1 h_S_) main_v46 main_c_17
  let main_v48 : IVec S_ 1 := andi main_v43 main_v47
  let main_v49 : FVec F S16 .f32 := Host.absf main_arg12
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg6 : FVec F S256 .f32) (main_arg7 : FVec F S256x256 .f32) (main_arg8 : FVec F S256 .f32) (main_arg9 : FVec F S256x128 .f32) (main_arg10 : FVec F S128 .f32) (main_arg11 : FVec F S128x16 .f32) (main_arg12 : FVec F S16 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x256 .f32) (main_arg1 : IVec S2x600000 32) (main_arg2 : IVec S50000 32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x128 .f32) (main_arg10 : FVec F S128 .f32) (main_arg11 : FVec F S128x16 .f32) (main_arg12 : FVec F S16 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_v13 main_v16
-- ==== Kernel.lean ====
abbrev S50000x256 : Shape := ⟨2, ![50000, 256]⟩
abbrev S2x600000 : Shape := ⟨2, ![2, 600000]⟩
abbrev S50000 : Shape := ⟨1, ![50000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x16 : Shape := ⟨2, ![128, 16]⟩
abbrev S16 : Shape := ⟨1, ![16]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S5000x256 : Shape := ⟨2, ![5000, 256]⟩
abbrev S650000x256 : Shape := ⟨2, ![650000, 256]⟩
abbrev S1x256 : Shape := ⟨2, ![1, 256]⟩
abbrev S64x256 : Shape := ⟨2, ![64, 256]⟩
abbrev S50000x1 : Shape := ⟨2, ![50000, 1]⟩
abbrev S64 : Shape := ⟨1, ![64]⟩
abbrev S64x1 : Shape := ⟨2, ![64, 1]⟩
abbrev S1x128 : Shape := ⟨2, ![1, 128]⟩
abbrev S1x16 : Shape := ⟨2, ![1, 16]⟩
abbrev S64x16 : Shape := ⟨2, ![64, 16]⟩
abbrev S64x128 : Shape := ⟨2, ![64, 128]⟩

abbrev nBuf : Space → Nat
  | .hbm => 144
  | .vmem => 21
  | .smem => 0
  | _ => 0

abbrev hbmTy0_0 (i : Nat) : BufTy := match i % 128 with
  | 0 => ⟨S50000x256, .f32⟩
  | 1 => ⟨S2x600000, .i32⟩
  | 2 => ⟨S50000, .i32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x128, .f32⟩
  | 10 => ⟨S128, .f32⟩
  | 11 => ⟨S128x16, .f32⟩
  | 12 => ⟨S16, .f32⟩
  | 13 => ⟨S50000, .i32⟩
  | 14 => ⟨S1x600000, .i32⟩
  | 15 => ⟨S600000, .i32⟩
  | 16 => ⟨S650000, .i32⟩
  | 17 => ⟨S1x600000, .i32⟩
  | 18 => ⟨S600000, .i32⟩
  | 19 => ⟨S650000, .i32⟩
  | 20 => ⟨S_, .f32⟩
  | 21 => ⟨S650000, .f32⟩
  | 22 => ⟨S_, .f32⟩
  | 23 => ⟨S50000, .f32⟩
  | 24 => ⟨S650000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S650000, .i32⟩
  | 39 => ⟨S650000, .i1⟩
  | 40 => ⟨S_, .i32⟩
  | 41 => ⟨S650000, .i32⟩
  | 42 => ⟨S650000, .i32⟩
  | 43 => ⟨S650000, .i32⟩
  | 44 => ⟨S650000x1, .i32⟩
  | 45 => ⟨S650000, .f32⟩
  | 46 => ⟨S_, .i32⟩
  | 47 => ⟨S650000, .i32⟩
  | 48 => ⟨S650000, .i1⟩
  | 49 => ⟨S_, .i32⟩
  | 50 => ⟨S650000, .i32⟩
  | 51 => ⟨S650000, .i32⟩
  | 52 => ⟨S650000, .i32⟩
  | 53 => ⟨S650000x1, .i32⟩
  | 54 => ⟨S650000, .f32⟩
  | 55 => ⟨S650000, .f32⟩
  | 56 => ⟨S50000x256, .f32⟩
  | 57 => ⟨S_, .i32⟩
  | 58 => ⟨S650000, .i32⟩
  | 59 => ⟨S650000, .i1⟩
  | 60 => ⟨S_, .i32⟩
  | 61 => ⟨S650000, .i32⟩
  | 62 => ⟨S650000, .i32⟩
  | 63 => ⟨S650000, .i32⟩
  | 64 => ⟨S650000x1, .i32⟩
  | 65 => ⟨S650000x256, .f32⟩
  | 66 => ⟨S650000x1, .f32⟩
  | 67 => ⟨S650000x256, .f32⟩
  | 68 => ⟨S650000x256, .f32⟩
  | 69 => ⟨S_, .f32⟩
  | 70 => ⟨S50000x256, .f32⟩
  | 71 => ⟨S650000x1, .i32⟩
  | 72 => ⟨S50000x256, .f32⟩
  | 73 => ⟨S1x256, .f32⟩
  | 74 => ⟨S50000x256, .f32⟩
  | 75 => ⟨S50000x256, .f32⟩
  | 76 => ⟨S_, .f32⟩
  | 77 => ⟨S50000x256, .f32⟩
  | 78 => ⟨S50000x256, .f32⟩
  | 79 => ⟨S50000x256, .f32⟩
  | 80 => ⟨S_, .i32⟩
  | 81 => ⟨S650000, .i32⟩
  | 82 => ⟨S650000, .i1⟩
  | 83 => ⟨S_, .i32⟩
  | 84 => ⟨S650000, .i32⟩
  | 85 => ⟨S650000, .i32⟩
  | 86 => ⟨S650000, .i32⟩
  | 87 => ⟨S650000x1, .i32⟩
  | 88 => ⟨S650000x256, .f32⟩
  | 89 => ⟨S650000x1, .f32⟩
  | 90 => ⟨S650000x256, .f32⟩
  | 91 => ⟨S650000x256, .f32⟩
  | 92 => ⟨S_, .f32⟩
  | 93 => ⟨S50000x256, .f32⟩
  | 94 => ⟨S650000x1, .i32⟩
  | 95 => ⟨S50000x256, .f32⟩
  | 96 => ⟨S1x256, .f32⟩
  | 97 => ⟨S50000x256, .f32⟩
  | 98 => ⟨S50000x256, .f32⟩
  | 99 => ⟨S_, .f32⟩
  | 100 => ⟨S50000x256, .f32⟩
  | 101 => ⟨S50000x256, .f32⟩
  | 102 => ⟨S50000x256, .f32⟩
  | 103 => ⟨S_, .i32⟩
  | 104 => ⟨S650000, .i32⟩
  | 105 => ⟨S650000, .i1⟩
  | 106 => ⟨S_, .i32⟩
  | 107 => ⟨S650000, .i32⟩
  | 108 => ⟨S650000, .i32⟩
  | 109 => ⟨S650000, .i32⟩
  | 110 => ⟨S650000x1, .i32⟩
  | 111 => ⟨S650000x256, .f32⟩
  | 112 => ⟨S650000x1, .f32⟩
  | 113 => ⟨S650000x256, .f32⟩
  | 114 => ⟨S650000x256, .f32⟩
  | 115 => ⟨S_, .f32⟩
  | 116 => ⟨S50000x256, .f32⟩
  | 117 => ⟨S650000x1, .i32⟩
  | 118 => ⟨S50000x256, .f32⟩
  | 119 => ⟨S1x256, .f32⟩
  | 120 => ⟨S50000x256, .f32⟩
  | 121 => ⟨S50000x256, .f32⟩
  | 122 => ⟨S_, .f32⟩
  | 123 => ⟨S50000x256, .f32⟩
  | 124 => ⟨S50000x256, .f32⟩
  | 125 => ⟨S_, .f32⟩
  | 126 => ⟨S64x256, .f32⟩
  | 127 => ⟨S50000x1, .i32⟩
  | _ => ⟨S50000x256, .f32⟩

abbrev hbmTy0_1 (i : Nat) : BufTy := match i % 128 with
  | 0 => ⟨S64x256, .f32⟩
  | 1 => ⟨S_, .f32⟩
  | 2 => ⟨S50000, .f32⟩
  | 3 => ⟨S_, .f32⟩
  | 4 => ⟨S64, .f32⟩
  | 5 => ⟨S50000x1, .i32⟩
  | 6 => ⟨S64, .f32⟩
  | 7 => ⟨S_, .f32⟩
  | 8 => ⟨S64, .f32⟩
  | 9 => ⟨S64, .f32⟩
  | 10 => ⟨S64x1, .f32⟩
  | 11 => ⟨S64x256, .f32⟩
  | 12 => ⟨S64x256, .f32⟩
  | 13 => ⟨S1x128, .f32⟩
  | 14 => ⟨S1x16, .f32⟩
  | 15 => ⟨S64x16, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S5000x256, .f32⟩
  | .local _ .vmem, ⟨14, _⟩ => ⟨S5000x256, .f32⟩
  | .local _ .vmem, ⟨15, _⟩ => ⟨S64x256, .f32⟩
  | .local _ .vmem, ⟨16, _⟩ => ⟨S256x128, .f32⟩
  | .local _ .vmem, ⟨17, _⟩ => ⟨S1x128, .f32⟩
  | .local _ .vmem, ⟨18, _⟩ => ⟨S128x16, .f32⟩
  | .local _ .vmem, ⟨19, _⟩ => ⟨S1x16, .f32⟩
  | .local _ .vmem, ⟨20, _⟩ => ⟨S64x16, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_c_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call2_cst : Ref sig .tc := ⟨.hbm, 99, rfl⟩
abbrev main_call2_v0 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_c_14 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_15 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_call3_cst : Ref sig .tc := ⟨.hbm, 122, rfl⟩
abbrev main_call3_v0 : Ref sig .tc := ⟨.hbm, 123, rfl⟩
abbrev main_v85 : Ref sig .tc := ⟨.hbm, 124, rfl⟩
abbrev main_cst_16 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_17 : Ref sig .tc := ⟨.hbm, 129, rfl⟩
abbrev main_v89 : Ref sig .tc := ⟨.hbm, 130, rfl⟩
abbrev main_cst_18 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_19 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc3_stg4_0 : Ref sig .tc := ⟨.vmem, 19, rfl⟩
abbrev cc3_stg5_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc3_sem3_0 : DmaSem sig := 18
abbrev cc3_sem4_0 : DmaSem sig := 19
abbrev cc3_sem5_0 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x256_S5000x256_0_0 : ∀ a, (![0, 0] : Fin 2 → Nat) a + S5000x256.size a ≤ S5000x256.size a
  h_S5000x256 : 0 < S5000x256.numel
  inb_S256x256_S256x256_0_0 : ∀ a, (![0, 0] : Fin 2 → Nat) a + S256x256.size a ≤ S256x256.size a
  h_S256x256 : 0 < S256x256.numel
  bcast_S650000x1_S650000x256_0_1 : S650000x1.BroadcastsInDim S650000x256 (![0, 1] : Fin 2 → Fin S650000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  bcast_S_S64x256 : S_.BroadcastsInDim S64x256 (![] : Fin 0 → Fin S64x256.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  shapeCasts_S128_S1x128 : S128.ShapeCasts S1x128
  shapeCasts_S16_S1x16 : S16.ShapeCasts S1x16
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  inb_S64x16_S64x16_0_0 : ∀ a, (![0, 0] : Fin 2 → Nat) a + S64x16.size a ≤ S64x16.size a
  h_S64x16 : 0 < S64x16.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x256_S256x256_S5000x256_1_0_0_1_n_n_wf : DotDims.WF S5000x256 S256x256 S5000x256 [1] [0] [0] [1] [] []
  gather_S50000x256_S650000x1_S650000x256_1_0_n_n_0_1_1256_wf : GatherDims.WF S50000x256 S650000x1 S650000x256 [1] [0] [] [0] [] 1 ![1, 256]
  scatter_S50000x256_S650000x1_S650000x256_1_0_0_1_wf : ScatterDims.WF S50000x256 S650000x1 S650000x256 [1] [0] [0] 1
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x128_S64x128_1_0_0_1_n_n_wf : DotDims.WF S64x256 S256x128 S64x128 [1] [0] [0] [1] [] []
  dot_S64x128_S128x16_S64x16_1_0_0_1_n_n_wf : DotDims.WF S64x128 S128x16 S64x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x256.size a ≤ S64x256.size a
  hwx3_0 : ∀ i : grid3.Coords, EltTy.bits .f32 = 32 ∨ (Rect.block (s := S64x256) S64x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x16.size a ≤ S128x16.size a
  hwx3_3 : ∀ i : grid3.Coords, EltTy.bits .f32 = 32 ∨ (Rect.block (s := S128x16) S128x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x16.size a ≤ S1x16.size a
  hwx3_4 : ∀ i : grid3.Coords, EltTy.bits .f32 = 32 ∨ (Rect.block (s := S1x16) S1x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x16.size a ≤ S64x16.size a
  hwx3_5 : ∀ i : grid3.Coords, EltTy.bits .f32 = 32 ∨ (Rect.block (s := S64x16) S64x16.size (cc3_transform_5 i) (hinb3_5 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S650000x1_S650000x256_1_0_n_n_0_1_1256 : GatherDims S50000x256 S650000x1 S650000x256 where
  offsetDims := [1]
  collapsedSliceDims := [0]
  operandBatchingDims := []
  startIndicesBatchingDims := []
  startIndexMap := [0]
  indexVectorDim := 1
  sliceSizes := ![1, 256]
  wf := gather_S50000x256_S650000x1_S650000x256_1_0_n_n_0_1_1256_wf
def scatter_S50000x256_S650000x1_S650000x256_1_0_0_1 : ScatterDims S50000x256 S650000x1 S650000x256 where
  updateWindowDims := [1]
  insertedWindowDims := [0]
  scatterDimsToOperandDims := [0]
  indexVectorDim := 1
  wf := scatter_S50000x256_S650000x1_S650000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v97) S64x256.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v98) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S128x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v99) S1x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v100) S64x16.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x600000 : Shape := ⟨2, ![2, 600000]⟩
abbrev S50000 : Shape := ⟨1, ![50000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x16 : Shape := ⟨2, ![128, 16]⟩
abbrev S16 : Shape := ⟨1, ![16]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x256 : Shape := ⟨2, ![650000, 256]⟩
abbrev S1x256 : Shape := ⟨2, ![1, 256]⟩
abbrev S64x256 : Shape := ⟨2, ![64, 256]⟩
abbrev S50000x1 : Shape := ⟨2, ![50000, 1]⟩
abbrev S64 : Shape := ⟨1, ![64]⟩
abbrev S64x1 : Shape := ⟨2, ![64, 1]⟩
abbrev S64x128 : Shape := ⟨2, ![64, 128]⟩
abbrev S1x128 : Shape := ⟨2, ![1, 128]⟩
abbrev S64x16 : Shape := ⟨2, ![64, 16]⟩
abbrev S1x16 : Shape := ⟨2, ![1, 16]⟩

abbrev nBuf : Space → Nat
  | .hbm => 152
  | .vmem => 0
  | .smem => 0
  | _ => 0

abbrev hbmTy0_0 (i : Nat) : BufTy := match i % 128 with
  | 0 => ⟨S50000x256, .f32⟩
  | 1 => ⟨S2x600000, .i32⟩
  | 2 => ⟨S50000, .i32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x128, .f32⟩
  | 10 => ⟨S128, .f32⟩
  | 11 => ⟨S128x16, .f32⟩
  | 12 => ⟨S16, .f32⟩
  | 13 => ⟨S50000, .i32⟩
  | 14 => ⟨S1x600000, .i32⟩
  | 15 => ⟨S600000, .i32⟩
  | 16 => ⟨S650000, .i32⟩
  | 17 => ⟨S1x600000, .i32⟩
  | 18 => ⟨S600000, .i32⟩
  | 19 => ⟨S650000, .i32⟩
  | 20 => ⟨S_, .f32⟩
  | 21 => ⟨S650000, .f32⟩
  | 22 => ⟨S_, .f32⟩
  | 23 => ⟨S50000, .f32⟩
  | 24 => ⟨S650000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S650000, .i32⟩
  | 39 => ⟨S650000, .i1⟩
  | 40 => ⟨S_, .i32⟩
  | 41 => ⟨S650000, .i32⟩
  | 42 => ⟨S650000, .i32⟩
  | 43 => ⟨S650000, .i32⟩
  | 44 => ⟨S650000x1, .i32⟩
  | 45 => ⟨S650000, .f32⟩
  | 46 => ⟨S_, .i32⟩
  | 47 => ⟨S650000, .i32⟩
  | 48 => ⟨S650000, .i1⟩
  | 49 => ⟨S_, .i32⟩
  | 50 => ⟨S650000, .i32⟩
  | 51 => ⟨S650000, .i32⟩
  | 52 => ⟨S650000, .i32⟩
  | 53 => ⟨S650000x1, .i32⟩
  | 54 => ⟨S650000, .f32⟩
  | 55 => ⟨S650000, .f32⟩
  | 56 => ⟨S50000x256, .f32⟩
  | 57 => ⟨S_, .i32⟩
  | 58 => ⟨S650000, .i32⟩
  | 59 => ⟨S650000, .i1⟩
  | 60 => ⟨S_, .i32⟩
  | 61 => ⟨S650000, .i32⟩
  | 62 => ⟨S650000, .i32⟩
  | 63 => ⟨S650000, .i32⟩
  | 64 => ⟨S650000x1, .i32⟩
  | 65 => ⟨S650000x256, .f32⟩
  | 66 => ⟨S650000x1, .f32⟩
  | 67 => ⟨S650000x256, .f32⟩
  | 68 => ⟨S650000x256, .f32⟩
  | 69 => ⟨S_, .f32⟩
  | 70 => ⟨S50000x256, .f32⟩
  | 71 => ⟨S650000x1, .i32⟩
  | 72 => ⟨S50000x256, .f32⟩
  | 73 => ⟨S1x256, .f32⟩
  | 74 => ⟨S50000x256, .f32⟩
  | 75 => ⟨S50000x256, .f32⟩
  | 76 => ⟨S_, .f32⟩
  | 77 => ⟨S50000x256, .f32⟩
  | 78 => ⟨S50000x256, .f32⟩
  | 79 => ⟨S50000x256, .f32⟩
  | 80 => ⟨S_, .i32⟩
  | 81 => ⟨S650000, .i32⟩
  | 82 => ⟨S650000, .i1⟩
  | 83 => ⟨S_, .i32⟩
  | 84 => ⟨S650000, .i32⟩
  | 85 => ⟨S650000, .i32⟩
  | 86 => ⟨S650000, .i32⟩
  | 87 => ⟨S650000x1, .i32⟩
  | 88 => ⟨S650000x256, .f32⟩
  | 89 => ⟨S650000x1, .f32⟩
  | 90 => ⟨S650000x256, .f32⟩
  | 91 => ⟨S650000x256, .f32⟩
  | 92 => ⟨S_, .f32⟩
  | 93 => ⟨S50000x256, .f32⟩
  | 94 => ⟨S650000x1, .i32⟩
  | 95 => ⟨S50000x256, .f32⟩
  | 96 => ⟨S1x256, .f32⟩
  | 97 => ⟨S50000x256, .f32⟩
  | 98 => ⟨S50000x256, .f32⟩
  | 99 => ⟨S_, .f32⟩
  | 100 => ⟨S50000x256, .f32⟩
  | 101 => ⟨S50000x256, .f32⟩
  | 102 => ⟨S50000x256, .f32⟩
  | 103 => ⟨S_, .i32⟩
  | 104 => ⟨S650000, .i32⟩
  | 105 => ⟨S650000, .i1⟩
  | 106 => ⟨S_, .i32⟩
  | 107 => ⟨S650000, .i32⟩
  | 108 => ⟨S650000, .i32⟩
  | 109 => ⟨S650000, .i32⟩
  | 110 => ⟨S650000x1, .i32⟩
  | 111 => ⟨S650000x256, .f32⟩
  | 112 => ⟨S650000x1, .f32⟩
  | 113 => ⟨S650000x256, .f32⟩
  | 114 => ⟨S650000x256, .f32⟩
  | 115 => ⟨S_, .f32⟩
  | 116 => ⟨S50000x256, .f32⟩
  | 117 => ⟨S650000x1, .i32⟩
  | 118 => ⟨S50000x256, .f32⟩
  | 119 => ⟨S1x256, .f32⟩
  | 120 => ⟨S50000x256, .f32⟩
  | 121 => ⟨S50000x256, .f32⟩
  | 122 => ⟨S_, .f32⟩
  | 123 => ⟨S50000x256, .f32⟩
  | 124 => ⟨S50000x256, .f32⟩
  | 125 => ⟨S_, .f32⟩
  | 126 => ⟨S64x256, .f32⟩
  | 127 => ⟨S50000x1, .i32⟩
  | _ => ⟨S50000x256, .f32⟩

abbrev hbmTy0_1 (i : Nat) : BufTy := match i % 128 with
  | 0 => ⟨S64x256, .f32⟩
  | 1 => ⟨S_, .f32⟩
  | 2 => ⟨S50000, .f32⟩
  | 3 => ⟨S_, .f32⟩
  | 4 => ⟨S64, .f32⟩
  | 5 => ⟨S50000x1, .i32⟩
  | 6 => ⟨S64, .f32⟩
  | 7 => ⟨S_, .f32⟩
  | 8 => ⟨S64, .f32⟩
  | 9 => ⟨S64, .f32⟩
  | 10 => ⟨S64x1, .f32⟩
  | 11 => ⟨S64x256, .f32⟩
  | 12 => ⟨S64x256, .f32⟩
  | 13 => ⟨S64x128, .f32⟩
  | 14 => ⟨S1x128, .f32⟩
  | 15 => ⟨S64x128, .f32⟩
  | 16 => ⟨S64x128, .f32⟩
  | 17 => ⟨S_, .f32⟩
  | 18 => ⟨S64x128, .f32⟩
  | 19 => ⟨S64x128, .f32⟩
  | 20 => ⟨S64x16, .f32⟩
  | 21 => ⟨S1x16, .f32⟩
  | 22 => ⟨S64x16, .f32⟩
  | 23 => ⟨S64x16, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_c_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call2_cst : Ref sig .tc := ⟨.hbm, 99, rfl⟩
abbrev main_call2_v0 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_c_14 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_15 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_call3_cst : Ref sig .tc := ⟨.hbm, 122, rfl⟩
abbrev main_call3_v0 : Ref sig .tc := ⟨.hbm, 123, rfl⟩
abbrev main_v85 : Ref sig .tc := ⟨.hbm, 124, rfl⟩
abbrev main_cst_16 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_17 : Ref sig .tc := ⟨.hbm, 129, rfl⟩
abbrev main_v89 : Ref sig .tc := ⟨.hbm, 130, rfl⟩
abbrev main_cst_18 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_19 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_call4_cst : Ref sig .tc := ⟨.hbm, 145, rfl⟩
abbrev main_call4_v0 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x256_0_1 : S650000x1.BroadcastsInDim S650000x256 (![0, 1] : Fin 2 → Fin S650000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S64x256 : S_.BroadcastsInDim S64x256 (![] : Fin 0 → Fin S64x256.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x256_S256x256_S50000x256_1_0_0_1_n_n_wf : DotDims.WF S50000x256 S256x256 S50000x256 [1] [0] [0] [1] [] []
  gather_S50000x256_S650000x1_S650000x256_1_0_n_n_0_1_1256_wf : GatherDims.WF S50000x256 S650000x1 S650000x256 [1] [0] [] [0] [] 1 ![1, 256]
  scatter_S50000x256_S650000x1_S650000x256_1_0_0_1_wf : ScatterDims.WF S50000x256 S650000x1 S650000x256 [1] [0] [0] 1
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x128_S64x128_1_0_0_1_n_n_wf : DotDims.WF S64x256 S256x128 S64x128 [1] [0] [0] [1] [] []
  dot_S64x128_S128x16_S64x16_1_0_0_1_n_n_wf : DotDims.WF S64x128 S128x16 S64x16 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S650000x1_S650000x256_1_0_n_n_0_1_1256 : GatherDims S50000x256 S650000x1 S650000x256 where
  offsetDims := [1]
  collapsedSliceDims := [0]
  operandBatchingDims := []
  startIndicesBatchingDims := []
  startIndexMap := [0]
  indexVectorDim := 1
  sliceSizes := ![1, 256]
  wf := gather_S50000x256_S650000x1_S650000x256_1_0_n_n_0_1_1256_wf
def scatter_S50000x256_S650000x1_S650000x256_1_0_0_1 : ScatterDims S50000x256 S650000x1 S650000x256 where
  updateWindowDims := [1]
  insertedWindowDims := [0]
  scatterDimsToOperandDims := [0]
  indexVectorDim := 1
  wf := scatter_S50000x256_S650000x1_S650000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

class Facts : Prop extends Facts₀ where

variable [Facts]
-- ==== Proof.RunResult.lean ====
/-
  The idealized kernel's run, read at the last segment boundary. The program is four kernel regions among stretches
  of host operations; the run's segments carry, on every core, each unscoped buffer at named contents from one
  boundary to the next, and the last boundary's contents are `Gen.W14 m ρ c`. So every weakly fair execution
  terminates, nothing faulting, with EVERY unscoped buffer at `Gen.W14 m ρ c` (`run_contents`): the launch over the
  segments, the last thread state read against the final state. The frame keeps of this only the thirteen argument
  arrays; `run_result` keeps the result array `main_v100` too, which the value modules then read back through the
  segments to a function of the arguments.
-/
import proofs.«125149_j37984690766193_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every final memory holds, on every core, each
    unscoped buffer at the last boundary's contents. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- The same run with the result array named and the argument arrays as launched (no host operation and no region
    writes an argument: `Gen.W14_main_argK`). -/
theorem run_result : θ_run defs (onTc (τ := τ) (main (F := F))) ⟨m, fun _ => 0, ρ⟩ (fun r => ∀ c : Dev nD,
      r.2.mem ((c.tc : Thread nD τ).loc main_v100) = W14 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v100 (by decide)),
      (h c _ (mem_uc main_arg0 (by decide))).trans (W14_main_arg0 m ρ c),
      (h c _ (mem_uc main_arg1 (by decide))).trans (W14_main_arg1 m ρ c),
      (h c _ (mem_uc main_arg2 (by decide))).trans (W14_main_arg2 m ρ c),
      (h c _ (mem_uc main_arg3 (by decide))).trans (W14_main_arg3 m ρ c),
      (h c _ (mem_uc main_arg4 (by decide))).trans (W14_main_arg4 m ρ c),
      (h c _ (mem_uc main_arg5 (by decide))).trans (W14_main_arg5 m ρ c),
      (h c _ (mem_uc main_arg6 (by decide))).trans (W14_main_arg6 m ρ c),
      (h c _ (mem_uc main_arg7 (by decide))).trans (W14_main_arg7 m ρ c),
      (h c _ (mem_uc main_arg8 (by decide))).trans (W14_main_arg8 m ρ c),
      (h c _ (mem_uc main_arg9 (by decide))).trans (W14_main_arg9 m ρ c),
      (h c _ (mem_uc main_arg10 (by decide))).trans (W14_main_arg10 m ρ c),
      (h c _ (mem_uc main_arg11 (by decide))).trans (W14_main_arg11 m ρ c),
      (h c _ (mem_uc main_arg12 (by decide))).trans (W14_main_arg12 m ρ c)⟩)
    (run_contents m ρ)

end Cert.KernelIdeal.Result

end
-- ==== Proof.Spec.lean ====
/-
  The graph network as ONE function of its arguments, in the reference program's vocabulary. Both programs apply the
  same host operations around their dense products, so those chains are named here once and never opened again:
    src, dst     the edge endpoints with one self-loop per node appended (600000 edges + 50000 loops);
    deg, dinv    the in-degree of every node (a scatter-add of ones over dst) and  deg^(-1/2)  where deg > 0, else 0;
    wrap         a negative index moved up by the node count (the indexing convention of a gather);
    norm         the edge weight  dinv[src] · dinv[dst];
    layer        one graph layer after its dense product hw:  relu( scatter-add over dst of  hw[src] · norm  + bias );
    meanPool     the mean of the node features over each of the 64 graphs (sum by graph id / max(count, 1));
    classify     relu(p · W1 + b1) · W2 + b2  as the reference spells it;
    dense        the reference's dense product, one dot_general.
  `forward mm cls` is the whole network over a dense product `mm` and a classifier `cls`: three layers, the pooling,
  the classifier. The reference's run ends at `forward dense classify` of the arguments.
-/
import proofs.«125149_j37984690766193_1_alg».proof.ReferenceIdeal
import proofs.«125149_j37984690766193_1_alg».proof.Proof.Gen.ReferenceIdeal

noncomputable section

namespace Cert.ReferenceIdeal.Spec

open Cert.ReferenceIdeal Cert.ReferenceIdeal.Facts₀ Idealize.ShloMosaic

variable {F : FTy → Type} [FloatOps F]

/-- The source endpoint of every edge, self-loops appended. -/
def src (ei : (⟨S2x600000, .i32⟩ : BufTy).Contents (Elt F)) : (⟨S650000, .i32⟩ : BufTy).Contents (Elt F) :=
  concatenate S650000 0 [⟨S600000, (shapeCast _ (extractStridedSlice S1x600000 ![0, 0] ei slices_S2x600000_S1x600000_0_0) shapeCasts_S1x600000_S600000)⟩, ⟨S50000, (iotaInDim S50000 32 0)⟩] concatenates_S600000_S50000_S650000_d0

/-- The target endpoint of every edge, self-loops appended. -/
def dst (ei : (⟨S2x600000, .i32⟩ : BufTy).Contents (Elt F)) : (⟨S650000, .i32⟩ : BufTy).Contents (Elt F) :=
  concatenate S650000 0 [⟨S600000, (shapeCast _ (extractStridedSlice S1x600000 ![1, 0] ei slices_S2x600000_S1x600000_1_0) shapeCasts_S1x600000_S600000)⟩, ⟨S50000, (iotaInDim S50000 32 0)⟩] concatenates_S600000_S50000_S650000_d0

/-- The in-degree of every node: ones added up over the edges' targets. -/
def deg (d : (⟨S650000, .i32⟩ : BufTy).Contents (Elt F)) : (⟨S50000, .f32⟩ : BufTy).Contents (Elt F) :=
  Host.scatterAdd scatter_S50000_S650000x1_S650000_n_0_0_1 (broadcastInDim S50000 ![] bcast_S_S50000 (constant S_ .f32 0x00000000#32)) (broadcastInDim S650000x1 ![0] bcast_S650000_S650000x1_0 d) (broadcastInDim S650000 ![] bcast_S_S650000 (constant S_ .f32 0x3F800000#32))

/-- deg^(-1/2) where the degree is positive, 0 elsewhere. -/
def dinv (d : (⟨S650000, .i32⟩ : BufTy).Contents (Elt F)) : (⟨S50000, .f32⟩ : BufTy).Contents (Elt F) :=
  select (cmpf (F := F) .ogt (deg d) (broadcastInDim S50000 ![] bcast_S_S50000 (constant S_ .f32 0x00000000#32))) (Host.rsqrt (maximumf (deg d) (broadcastInDim S50000 ![] bcast_S_S50000 (constant S_ .f32 0x3F800000#32)))) (broadcastInDim S50000 ![] bcast_S_S50000 (id (constant S_ .f32 0x00000000#32)))

/-- A negative node index moved up by the node count. -/
def wrap (s : (⟨S650000, .i32⟩ : BufTy).Contents (Elt F)) : (⟨S650000, .i32⟩ : BufTy).Contents (Elt F) :=
  select (cmpi .slt s (broadcastInDim S650000 ![] bcast_S_S650000 (constantI S_ 32 0#32))) (addi s (broadcastInDim S650000 ![] bcast_S_S650000 (constantI S_ 32 50000#32))) s

/-- The weight of every edge: dinv at its source times dinv at its target. -/
def norm (s d : (⟨S650000, .i32⟩ : BufTy).Contents (Elt F)) : (⟨S650000, .f32⟩ : BufTy).Contents (Elt F) :=
  mulf (Host.gather gather_S50000_S650000x1_S650000_n_0_n_n_0_1_1 (dinv d) (broadcastInDim S650000x1 ![0] bcast_S650000_S650000x1_0 (wrap s))) (Host.gather gather_S50000_S650000x1_S650000_n_0_n_n_0_1_1 (dinv d) (broadcastInDim S650000x1 ![0] bcast_S650000_S650000x1_0 (wrap d)))

/-- One graph layer after its dense product hw: the rows of hw gathered at the sources, scaled by the edge weights,
    added up at the targets, the bias added, and the maximum with 0. -/
def layer (hw : (⟨S50000x256, .f32⟩ : BufTy).Contents (Elt F)) (s d : (⟨S650000, .i32⟩ : BufTy).Contents (Elt F)) (nrm : (⟨S650000, .f32⟩ : BufTy).Contents (Elt F)) (b : (⟨S256, .f32⟩ : BufTy).Contents (Elt F)) : (⟨S50000x256, .f32⟩ : BufTy).Contents (Elt F) :=
  maximumf (addf (Host.scatterAdd scatter_S50000x256_S650000x1_S650000x256_1_0_0_1 (broadcastInDim S50000x256 ![] bcast_S_S50000x256 (constant S_ .f32 0x00000000#32)) (broadcastInDim S650000x1 ![0] bcast_S650000_S650000x1_0 d) (mulf (Host.gather gather_S50000x256_S650000x1_S650000x256_1_0_n_n_0_1_1256 hw (broadcastInDim S650000x1 ![0] bcast_S650000_S650000x1_0 (wrap s))) (broadcastInDim S650000x256 ![0, 1] bcast_S650000x1_S650000x256_0_1 (broadcastInDim S650000x1 ![0] bcast_S650000_S650000x1_0 nrm)))) (broadcastInDim S50000x256 ![0, 1] bcast_S1x256_S50000x256_0_1 (broadcastInDim S1x256 ![1] bcast_S256_S1x256_1 b))) (broadcastInDim S50000x256 ![] bcast_S_S50000x256 (constant S_ .f32 0x00000000#32))

/-- The mean of the node features over each graph: the sum by graph id over the count by graph id, the count at least 1. -/
def meanPool (h : (⟨S50000x256, .f32⟩ : BufTy).Contents (Elt F)) (batch : (⟨S50000, .i32⟩ : BufTy).Contents (Elt F)) : (⟨S64x256, .f32⟩ : BufTy).Contents (Elt F) :=
  Host.divf (Host.scatterAdd scatter_S64x256_S50000x1_S50000x256_1_0_0_1 (broadcastInDim S64x256 ![] bcast_S_S64x256 (constant S_ .f32 0x00000000#32)) (broadcastInDim S50000x1 ![0] bcast_S50000_S50000x1_0 batch) h) (broadcastInDim S64x256 ![0, 1] bcast_S64x1_S64x256_0_1 (broadcastInDim S64x1 ![0] bcast_S64_S64x1_0 (maximumf (Host.scatterAdd scatter_S64_S50000x1_S50000_n_0_0_1 (broadcastInDim S64 ![] bcast_S_S64 (constant S_ .f32 0x00000000#32)) (broadcastInDim S50000x1 ![0] bcast_S50000_S50000x1_0 batch) (broadcastInDim S50000 ![] bcast_S_S50000 (constant S_ .f32 0x3F800000#32))) (broadcastInDim S64 ![] bcast_S_S64 (constant S_ .f32 0x3F800000#32)))))

/-- The classifier as the reference spells it. -/
def classify (p : (⟨S64x256, .f32⟩ : BufTy).Contents (Elt F)) (w1 : (⟨S256x128, .f32⟩ : BufTy).Contents (Elt F)) (b1 : (⟨S128, .f32⟩ : BufTy).Contents (Elt F)) (w2 : (⟨S128x16, .f32⟩ : BufTy).Contents (Elt F)) (b2 : (⟨S16, .f32⟩ : BufTy).Contents (Elt F)) : (⟨S64x16, .f32⟩ : BufTy).Contents (Elt F) :=
  addf (Host.dotGeneral dot_S64x128_S128x16_S64x16_1_0_0_1_n_n none (maximumf (addf (Host.dotGeneral dot_S64x256_S256x128_S64x128_1_0_0_1_n_n none p w1) (broadcastInDim S64x128 ![0, 1] bcast_S1x128_S64x128_0_1 (broadcastInDim S1x128 ![1] bcast_S128_S1x128_1 b1))) (broadcastInDim S64x128 ![] bcast_S_S64x128 (constant S_ .f32 0x00000000#32))) w2) (broadcastInDim S64x16 ![0, 1] bcast_S1x16_S64x16_0_1 (broadcastInDim S1x16 ![1] bcast_S16_S1x16_1 b2))

/-- The reference's dense product. -/
def dense (h : (⟨S50000x256, .f32⟩ : BufTy).Contents (Elt F)) (w : (⟨S256x256, .f32⟩ : BufTy).Contents (Elt F)) : (⟨S50000x256, .f32⟩ : BufTy).Contents (Elt F) :=
  Host.dotGeneral dot_S50000x256_S256x256_S50000x256_1_0_0_1_n_n none h w

/-- The whole network over a dense product `mm` and a classifier `cls`. -/
def forward (mm : (⟨S50000x256, .f32⟩ : BufTy).Contents (Elt F) → (⟨S256x256, .f32⟩ : BufTy).Contents (Elt F) → (⟨S50000x256, .f32⟩ : BufTy).Contents (Elt F))
    (cls : (⟨S64x256, .f32⟩ : BufTy).Contents (Elt F) → (⟨S256x128, .f32⟩ : BufTy).Contents (Elt F) → (⟨S128, .f32⟩ : BufTy).Contents (Elt F) → (⟨S128x16, .f32⟩ : BufTy).Contents (Elt F) → (⟨S16, .f32⟩ : BufTy).Contents (Elt F) → (⟨S64x16, .f32⟩ : BufTy).Contents (Elt F))
    (x : (⟨S50000x256, .f32⟩ : BufTy).Contents (Elt F)) (ei : (⟨S2x600000, .i32⟩ : BufTy).Contents (Elt F)) (batch : (⟨S50000, .i32⟩ : BufTy).Contents (Elt F))
    (W0 : (⟨S256x256, .f32⟩ : BufTy).Contents (Elt F)) (b0 : (⟨S256, .f32⟩ : BufTy).Contents (Elt F)) (W1 : (⟨S256x256, .f32⟩ : BufTy).Contents (Elt F)) (b1 : (⟨S256, .f32⟩ : BufTy).Contents (Elt F))
    (W2 : (⟨S256x256, .f32⟩ : BufTy).Contents (Elt F)) (b2 : (⟨S256, .f32⟩ : BufTy).Contents (Elt F))
    (cW1 : (⟨S256x128, .f32⟩ : BufTy).Contents (Elt F)) (cb1 : (⟨S128, .f32⟩ : BufTy).Contents (Elt F)) (cW2 : (⟨S128x16, .f32⟩ : BufTy).Contents (Elt F)) (cb2 : (⟨S16, .f32⟩ : BufTy).Contents (Elt F)) : (⟨S64x16, .f32⟩ : BufTy).Contents (Elt F) :=
  cls (meanPool (layer (mm (layer (mm (layer (mm x W0) (src ei) (dst ei) (norm (src ei) (dst ei)) b0) W1) (src ei) (dst ei) (norm (src ei) (dst ei)) b1) W2) (src ei) (dst ei) (norm (src ei) (dst ei)) b2) batch) cW1 cb1 cW2 cb2

end Cert.ReferenceIdeal.Spec

end
-- ==== Proof.RefValue.lean ====
/-
  The reference's run ends at the network's function of the arguments. The generated run of the reference states its
  result as one long term of the arguments' launch contents; that term is, operation for operation, `Spec.forward`
  over the reference's own dense product and classifier: the named chains unfolded.
-/
import proofs.«125149_j37984690766193_1_alg».proof.Proof.RefRunP
import proofs.«125149_j37984690766193_1_alg».proof.Proof.Spec

set_option maxRecDepth 16384

noncomputable section

namespace Cert.ReferenceIdeal.RefValue

open Cert.ReferenceIdeal Cert.ReferenceIdeal.Spec
open Idealize.ShloMosaic Idealize.ShloMosaic.TcCoe Idealize.SL.Sem

variable {F : FTy → Type} [FloatOps F]

/-- The reference's result term is the network's function of its thirteen arguments. -/
theorem res_eq_forward (m : (ℓ : Loc nD τ sig) → Buf (Elt F) ℓ) (c : Dev nD) :
    Cert.ReferenceIdeal.ValueP.res_main_v106 m c
      = forward (F := F) dense classify (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Cert.ReferenceIdeal.ValueP.res_main_v106 forward classify meanPool layer norm dinv deg wrap src dst dense
  rfl

end Cert.ReferenceIdeal.RefValue

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.Dense.lean ====
/-
  The dense product of the graph layers. Every layer multiplies the node features  h : [50000, 256]  by a weight
  matrix  W : [256, 256];  at the ideal values entry (p, q) of the product is  ∑ₖ h(p, k) · W(k, q)  (`prodAt`, `prod`).
  The kernel computes it in row blocks of 5000 rows: a block's product at (p, q), when the block holds rows
  r₀ … r₀ + 4999 of h, is entry (r₀ + p, q) of the whole product (`blockProd_apply`); the reference computes it by ONE
  dot_general, which is the same function (`prod_eq_dotGeneral`).
-/
import proofs.«125149_j37984690766193_1_alg».proof.ReferenceIdeal
import proofs.«125149_j37984690766193_1_alg».proof.Proof.Gen.ReferenceIdeal
import proofs.«125149_j37984690766193_1_alg».proof.Proof.LibPlainDot
import Idealize.ShloMosaic.Lib.ValueIdx
import Idealize.ShloMosaic.PureOps.Ideal.Laws

noncomputable section

open scoped BigOperators

namespace Cert.Dense

open Idealize.ShloMosaic Idealize.ShloMosaic.ValueIdx

/-- Entry (p, q) of the product of the whole arrays. -/
def prodAt (x : FVec Ideal ⟨2, ![50000, 256]⟩ .f32) (w : FVec Ideal ⟨2, ![256, 256]⟩ .f32) (p : Fin 50000) (q : Fin 256) : EReal :=
  ∑ k : Fin 256, x (ix2 p k) * w (ix2 k q)

/-- The product of the whole arrays. -/
def prod (x : FVec Ideal ⟨2, ![50000, 256]⟩ .f32) (w : FVec Ideal ⟨2, ![256, 256]⟩ .f32) : FVec Ideal ⟨2, ![50000, 256]⟩ .f32 :=
  fun i => prodAt x w (i 0) (i 1)

theorem prod_apply (x : FVec Ideal ⟨2, ![50000, 256]⟩ .f32) (w : FVec Ideal ⟨2, ![256, 256]⟩ .f32) (p : Fin 50000) (q : Fin 256) :
    prod x w (ix2 p q) = prodAt x w p q := rfl

/-- A block's product into the zero accumulator at (p, q), when row p of the left block is row r of x and column q of
    the right block is column q of w: entry (r, q) of the whole product. -/
theorem blockProd_apply (d : DotDims ⟨2, ![5000, 256]⟩ ⟨2, ![256, 256]⟩ ⟨2, ![5000, 256]⟩) (hd : d = DotDims.plain 5000 256 256)
    (X : FVec Ideal ⟨2, ![5000, 256]⟩ .f32) (W : FVec Ideal ⟨2, ![256, 256]⟩ .f32)
    (x : FVec Ideal ⟨2, ![50000, 256]⟩ .f32) (w : FVec Ideal ⟨2, ![256, 256]⟩ .f32) (p : Fin 5000) (q : Fin 256) (r : Fin 50000)
    (hX : ∀ k : Fin 256, X (ix2 p k) = x (ix2 r k)) (hW : ∀ k : Fin 256, W (ix2 k q) = w (ix2 k q)) :
    FloatOps.matmul d none X W (constant ⟨2, ![5000, 256]⟩ .f32 0x00000000#32) (ix2 p q) = prodAt x w r q := by
  unfold prodAt
  refine (matmul_plain_zero_apply d hd none X W p q).trans (Finset.sum_congr rfl fun k _ => ?_)
  rw [hX k, hW k]

/-- The reference's one dot_general of the whole arrays is the product. -/
theorem prod_eq_dotGeneral (x : FVec Ideal ⟨2, ![50000, 256]⟩ .f32) (w : FVec Ideal ⟨2, ![256, 256]⟩ .f32) :
    Host.dotGeneral (F := Ideal) Cert.ReferenceIdeal.dot_S50000x256_S256x256_S50000x256_1_0_0_1_n_n none x w = prod x w := by
  funext j
  obtain ⟨p, q, rfl⟩ : ∃ (p : Fin 50000) (q : Fin 256), j = ix2 p q := ⟨j 0, j 1, eq_ix2 j⟩
  exact dotGeneral_plain_apply _ rfl none _ x w p q

end Cert.Dense

end
-- ==== Proof.LibRowTwice.lean ====
/-
  A vector laid along every row of a matrix, two ways. A kernel casts the vector [n] to the one-row array [1, n] and
  broadcasts that down m rows; a host program places the vector on axis 1 of a [1, n] array (broadcast_in_dim, dims = [1])
  and then broadcasts that on both axes to [m, n] (broadcast_in_dim, dims = [0, 1]) — what jnp writes for  x @ W + b .
  Entry (r, t) of either is entry t of the vector, so the two arrays are equal (general in m, n and the element type).
-/
import Idealize.ShloMosaic.Lib.Pipeline.Value
import Idealize.ShloMosaic.Lib.ValueIdx
import Idealize.ShloMosaic.Lib.ValueLayout
import Idealize.ShloMosaic.Lib.KernelVsHost

namespace Idealize.ShloMosaic.ValueIdx

open Idealize.ShloMosaic

/-- A vector of n entries laid along each of m rows, two ways: the one-row cast of the vector broadcast down the rows,
    and the vector placed on axis 1 of a [1, n] array which is then broadcast on both axes to [m, n]. Entry (r, t) of
    either is entry t of the vector. -/
theorem broadcastTo_row_eq_broadcastInDim_twice {α : Type} {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hr : (⟨1, ![n]⟩ : Shape).BroadcastsInDim ⟨2, ![1, n]⟩ ![1])
    (hbc : (⟨2, ![1, n]⟩ : Shape).BroadcastsInDim ⟨2, ![m, n]⟩ ![0, 1]) :
    broadcastTo ⟨2, ![m, n]⟩ (shapeCast ⟨2, ![1, n]⟩ x h1) hb
      = broadcastInDim ⟨2, ![m, n]⟩ ![0, 1] hbc (broadcastInDim ⟨2, ![1, n]⟩ ![1] hr x) := by
  funext i
  obtain ⟨r, t, rfl⟩ : ∃ (r : Fin m) (t : Fin n), i = ix2 r t := ⟨i 0, i 1, eq_ix2 i⟩
  rw [broadcastTo_1b_ab_apply, shapeCast_a_1a_apply, broadcastInDim_oneRow_apply]
  refine (broadcastInDim_apply ![1] hr x (ix2 (0 : Fin 1) t) (ix1 t) fun a => ?_).symm
  match a with
  | ⟨0, _⟩ =>
    show t.val = if n = 1 then 0 else t.val
    split
    · have := t.isLt; omega
    · rfl

end Idealize.ShloMosaic.ValueIdx
-- ==== Proof.Classifier.lean ====
/-
  The classifier region of the kernel program: two dense layers, relu between them, on one grid point whose six
  windows are each one whole-array block.
  * region3_array: whatever the arrays hold when the region is entered, the [64, 16] result array ends at the
    body's arithmetic (relu(p · W1 + b1) · W2 + b2, as one pure term) of the five input arrays: the one point's
    block of every window is the whole array, and its one store covers the result.
  * pay_eq_reference: that term, with the two biases entering as [1, n] rows cast from [n] vectors, is the
    reference's dot_general / broadcast_in_dim / maximum term of the same operands, as arrays: a product
    accumulated into a zero splat is the host's product, a bias row broadcast down the rows is the vector laid
    along every row by the host's two broadcasts, and the splat of 0 is the host's broadcast of the constant 0.
  Everything is at the ideal values (extended reals, exact operations); of real arithmetic only 0 + x = x is
  used, inside the library's readings of a product accumulated into zero and of the host's product.
-/
import proofs.«125149_j37984690766193_1_alg».proof.Proof.Gen.KernelIdeal.Frame
import proofs.«125149_j37984690766193_1_alg».proof.ReferenceIdeal
import proofs.«125149_j37984690766193_1_alg».proof.Proof.Gen.ReferenceIdeal
import Idealize.ShloMosaic.Lib.Pipeline.Value
import Idealize.ShloMosaic.Lib.ValueIdx
import Idealize.ShloMosaic.Lib.ValueLayout
import Idealize.ShloMosaic.Lib.KernelVsHost
import proofs.«125149_j37984690766193_1_alg».proof.Proof.LibRowTwice
import Idealize.ShloMosaic.PureOps.Ideal.Laws

set_option maxRecDepth 16384

noncomputable section

namespace Cert.KernelIdeal.Classifier

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

/-- The pair of zero offsets, as the constant-zero function. -/
theorem hz : (![0, 0] : Fin 2 → Nat) = fun _ => 0 := funext fun a => by fin_cases a <;> rfl

section Region
variable (V : (c : Dev nD) → (b : Ref sig .tc) → Buf (Elt Ideal) ((c : Thread nD τ).loc b))

/-- The grid has one point and every window's block index there is (0, 0): block (0, 0) of extents the array's own,
    read at offsets 0 · size + 1 · coordinate, is the array. Window 0: the pooled features. -/
theorem iblk3_0 (c : Dev nD) (t : Fin cfg3.N) : Gen.iblk3 V c 0 t = V c main_v97 := by
  have hz' : (fun a => win3_0.index t a * main_v97.ty.shape.size a) = fun _ => 0 := funext fun a => by fin_cases a <;> rfl
  exact Memref.read_access_unit_zero (Elt Ideal) main_v97 hz' (fun a => by rw [congrFun hz' a]; simp) (V c main_v97)

/-- Window 1: the first layer's weights. -/
theorem iblk3_1 (c : Dev nD) (t : Fin cfg3.N) : Gen.iblk3 V c 1 t = V c main_arg9 := by
  have hz' : (fun a => win3_1.index t a * main_arg9.ty.shape.size a) = fun _ => 0 := funext fun a => by fin_cases a <;> rfl
  exact Memref.read_access_unit_zero (Elt Ideal) main_arg9 hz' (fun a => by rw [congrFun hz' a]; simp) (V c main_arg9)

/-- Window 2: the first layer's bias, as a row. -/
theorem iblk3_2 (c : Dev nD) (t : Fin cfg3.N) : Gen.iblk3 V c 2 t = V c main_v98 := by
  have hz' : (fun a => win3_2.index t a * main_v98.ty.shape.size a) = fun _ => 0 := funext fun a => by fin_cases a <;> rfl
  exact Memref.read_access_unit_zero (Elt Ideal) main_v98 hz' (fun a => by rw [congrFun hz' a]; simp) (V c main_v98)

/-- Window 3: the second layer's weights. -/
theorem iblk3_3 (c : Dev nD) (t : Fin cfg3.N) : Gen.iblk3 V c 3 t = V c main_arg11 := by
  have hz' : (fun a => win3_3.index t a * main_arg11.ty.shape.size a) = fun _ => 0 := funext fun a => by fin_cases a <;> rfl
  exact Memref.read_access_unit_zero (Elt Ideal) main_arg11 hz' (fun a => by rw [congrFun hz' a]; simp) (V c main_arg11)

/-- Window 4: the second layer's bias, as a row. -/
theorem iblk3_4 (c : Dev nD) (t : Fin cfg3.N) : Gen.iblk3 V c 4 t = V c main_v99 := by
  have hz' : (fun a => win3_4.index t a * main_v99.ty.shape.size a) = fun _ => 0 := funext fun a => by fin_cases a <;> rfl
  exact Memref.read_access_unit_zero (Elt Ideal) main_v99 hz' (fun a => by rw [congrFun hz' a]; simp) (V c main_v99)

/-- What the point writes back: the body's one store covers its whole buffer, so the buffer holds the payload of the
    five loaded blocks, each the whole array; and block (0, 0) of that, of the array's own extents, is all of it. -/
theorem flushed3_5 (c : Dev nD) (t : Fin cfg3.N) :
    (Gen.dat3 V c).flushed 5 t
      = ((cfg3.win 5).blk t).view.read (Elt Ideal)
          (Gen.k3_pay1 (F := Ideal) (V c main_v97) (V c main_arg9) (V c main_v98) (V c main_arg11) (V c main_v99)) := by
  show (cfg3.win 5).cut (grid3.coords t) ((Gen.dat3 V c).after 5 t) = _
  rw [Gen.after3_5]
  unfold Gen.out3_5
  rw [View.canon_unit_zero hz]
  rw [View.ld_unit_zero (S := S64x256) hz, View.ld_unit_zero (S := S256x128) hz, View.ld_unit_zero (S := S1x128) hz,
    View.ld_unit_zero (S := S128x16) hz, View.ld_unit_zero (S := S1x16) hz]
  rw [iblk3_0, iblk3_1, iblk3_2, iblk3_3, iblk3_4]
  have hz' : (fun a => win3_5.index t a * main_v100.ty.shape.size a) = fun _ => 0 := funext fun a => by fin_cases a <;> rfl
  exact (Memref.read_access_unit_zero (Elt Ideal) main_v100 hz' (fun a => by rw [congrFun hz' a]; simp) _).symm

/-- The grid's one point. -/
abbrev t3 : Fin cfg3.N := ⟨0, by decide⟩

/-- Every index of the [64, 16] result array lies in the one point's block: on each axis the block starts at
    0 · size = 0 and has the array's own extent. -/
theorem mem_blk3_5 (i : S64x16.Idx) : i ∈ ((cfg3.win 5).blk t3).view.set := by
  show i ∈ ((View.whole main_v100).slice (win3_5.rect t3)).set
  rw [View.set_slice_whole, Rect.mem_set_unit]
  intro a
  have h0 : (i 0 : Nat) < 64 := (i 0).isLt
  have h1 : (i 1 : Nat) < 16 := (i 1).isLt
  match a with
  | ⟨0, _⟩ => exact ⟨Nat.zero_le _, h0⟩
  | ⟨1, _⟩ => exact ⟨Nat.zero_le _, h1⟩

/-- The result array after the region, whatever the contents at its entry: the one point's block is the whole array,
    so the array ends at the payload of the five input arrays. -/
theorem region3_array (c : Dev nD) :
    (Gen.dat3 V c).arrAt 5 cfg3.N
      = Gen.k3_pay1 (F := Ideal) (V c main_v97) (V c main_arg9) (V c main_v98) (V c main_arg11) (V c main_v99) :=
  (Gen.dat3 V c).arrAt_eq_of_cover 5 _ (fun t _ => flushed3_5 V c t) fun i =>
    ⟨t3, Gen.flush3_5 t3, mem_blk3_5 i⟩

end Region

section Payload

/-- The body's arithmetic written out: both layers' products accumulate into zero splats, each bias row is
    broadcast down the 64 rows, and the relu is the maximum with the splat of 0. -/
theorem k3_pay1_eq {F : FTy → Type} [FloatOps F] (x0 : Vec F S64x256 .f32) (x1 : Vec F S256x128 .f32)
    (x2 : Vec F S1x128 .f32) (x3 : Vec F S128x16 .f32) (x4 : Vec F S1x16 .f32) :
    Gen.k3_pay1 x0 x1 x2 x3 x4
      = addf (matmul dot_S64x128_S128x16_S64x16_1_0_0_1_n_n none
            (maximumf (addf (matmul dot_S64x256_S256x128_S64x128_1_0_0_1_n_n none
                    (shapeCast S64x256 x0 shapeCasts_S64x256_S64x256) x1 (constant S64x128 .f32 0x00000000#32))
                (broadcastTo S64x128 (shapeCast S1x128 x2 shapeCasts_S1x128_S1x128) broadcasts_S1x128_S64x128))
              (broadcast S64x128 (Scalar.ofBits .f32 0x00000000#32 : F .f32)))
            x3 (constant S64x16 .f32 0x00000000#32))
          (broadcastTo S64x16 (shapeCast S1x16 x4 shapeCasts_S1x16_S1x16) broadcasts_S1x16_S64x16) := rfl

/-- The classifier's arithmetic on biases that enter as one-row casts of vectors is the reference's term of the same
    operands: a product into the zero accumulator is the host's product, a bias row broadcast down the rows is the
    host's two broadcasts of the vector, and the splat of 0 is the host's broadcast of the constant 0. -/
theorem pay_eq_reference (p : FVec Ideal S64x256 .f32) (w1 : FVec Ideal S256x128 .f32) (b1 : FVec Ideal S128 .f32)
    (w2 : FVec Ideal S128x16 .f32) (b2 : FVec Ideal S16 .f32) :
    Gen.k3_pay1 (F := Ideal) p w1 (shapeCast S1x128 b1 shapeCasts_S128_S1x128) w2 (shapeCast S1x16 b2 shapeCasts_S16_S1x16)
      = addf (Host.dotGeneral (F := Ideal) Cert.ReferenceIdeal.dot_S64x128_S128x16_S64x16_1_0_0_1_n_n none
            (maximumf (addf (Host.dotGeneral (F := Ideal) Cert.ReferenceIdeal.dot_S64x256_S256x128_S64x128_1_0_0_1_n_n none p w1)
                (broadcastInDim Cert.ReferenceIdeal.S64x128 ![0, 1] Cert.ReferenceIdeal.Gen.bcast_S1x128_S64x128_0_1
                  (broadcastInDim Cert.ReferenceIdeal.S1x128 ![1] Cert.ReferenceIdeal.Gen.bcast_S128_S1x128_1 b1)))
              (broadcastInDim Cert.ReferenceIdeal.S64x128 ![] Cert.ReferenceIdeal.Gen.bcast_S_S64x128
                (constant (F := Ideal) Cert.ReferenceIdeal.S_ .f32 0x00000000#32))) w2)
          (broadcastInDim Cert.ReferenceIdeal.S64x16 ![0, 1] Cert.ReferenceIdeal.Gen.bcast_S1x16_S64x16_0_1
            (broadcastInDim Cert.ReferenceIdeal.S1x16 ![1] Cert.ReferenceIdeal.Gen.bcast_S16_S1x16_1 b2)) := by
  rw [k3_pay1_eq, shapeCast_self, shapeCast_self, shapeCast_self,
    matmul_zero_eq_dotGeneral, matmul_zero_eq_dotGeneral,
    broadcastTo_row_eq_broadcastInDim_twice b1 _ _ Cert.ReferenceIdeal.Gen.bcast_S128_S1x128_1 Cert.ReferenceIdeal.Gen.bcast_S1x128_S64x128_0_1,
    broadcastTo_row_eq_broadcastInDim_twice b2 _ _ Cert.ReferenceIdeal.Gen.bcast_S16_S1x16_1 Cert.ReferenceIdeal.Gen.bcast_S1x16_S64x16_0_1,
    broadcastInDim_constant]
  rfl

end Payload

end Cert.KernelIdeal.Classifier
end
-- ==== Proof.Keeps.lean ====
/-
  What each stretch of host operations of the idealized kernel leaves unchanged. The program's run folds the buffer
  contents through ten stretches of host operations and four kernel regions; a value computed early (the edge
  endpoints, the edge weights, an argument) is read many stretches later, so each stretch comes with the list of the
  buffers its operations write and the statement that every other buffer keeps its contents through it.
-/
import proofs.«125149_j37984690766193_1_alg».proof.Proof.Gen.KernelIdeal.Launch
import Idealize.ShloMosaic.Lib.StableHlo.Run

noncomputable section

namespace Cert.KernelIdeal.Keeps

open Cert.KernelIdeal Cert.KernelIdeal.Gen
open Idealize.ShloMosaic Idealize.ShloMosaic.TcCoe Idealize.SL.Sem

variable {F : FTy → Type} [FloatOps F]

/-- The buffers the operations of `hostOps0` write, in order. -/
abbrev hostOps0_W : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer none of them writes holds after the stretch what it held before. -/
theorem keep_hostOps0 (V : Valuation τ sig (Elt F)) (r : Ref sig .tc) (h : r ∉ hostOps0_W) :
    StableHlo.after hostOps0 V (Proc.devRef .tc r) = V (Proc.devRef .tc r) :=
  StableHlo.after_of_writes_sub hostOps0 V hostOps0_writes h

/-- The buffers the operations of `hostOps0_1` write, in order. -/
abbrev hostOps0_1_W : List (Ref sig .tc) := [main_call0_v0, main_call0_v1, main_v16]
theorem hostOps0_1_writes : (hostOps0_1 : List (HloOp τ sig (Elt F))).Forall fun op => op.writes ⊆ (hostOps0_1_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer none of them writes holds after the stretch what it held before. -/
theorem keep_hostOps0_1 (V : Valuation τ sig (Elt F)) (r : Ref sig .tc) (h : r ∉ hostOps0_1_W) :
    StableHlo.after hostOps0_1 V (Proc.devRef .tc r) = V (Proc.devRef .tc r) :=
  StableHlo.after_of_writes_sub hostOps0_1 V hostOps0_1_writes h

/-- The buffers the operations of `hostOps0_2` write, in order. -/
abbrev hostOps0_2_W : List (Ref sig .tc) := [main_c, main_v17, main_v18, main_c_4, main_v19, main_v20, main_v21, main_v22, main_v23, main_c_5, main_v24, main_v25, main_c_6, main_v26, main_v27, main_v28, main_v29, main_v30, main_v31]
theorem hostOps0_2_writes : (hostOps0_2 : List (HloOp τ sig (Elt F))).Forall fun op => op.writes ⊆ (hostOps0_2_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer none of them writes holds after the stretch what it held before. -/
theorem keep_hostOps0_2 (V : Valuation τ sig (Elt F)) (r : Ref sig .tc) (h : r ∉ hostOps0_2_W) :
    StableHlo.after hostOps0_2 V (Proc.devRef .tc r) = V (Proc.devRef .tc r) :=
  StableHlo.after_of_writes_sub hostOps0_2 V hostOps0_2_writes h

/-- The buffers the operations of `hostOps1` write, in order. -/
abbrev hostOps1_W : List (Ref sig .tc) := [main_c_7, main_v33, main_v34, main_c_8, main_v35, main_v36, main_v37, main_v38, main_v39, main_v40, main_v41, main_v42, main_cst_9, main_v43, main_v44, main_v45, main_v46, main_v47, main_v48]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer none of them writes holds after the stretch what it held before. -/
theorem keep_hostOps1 (V : Valuation τ sig (Elt F)) (r : Ref sig .tc) (h : r ∉ hostOps1_W) :
    StableHlo.after hostOps1 V (Proc.devRef .tc r) = V (Proc.devRef .tc r) :=
  StableHlo.after_of_writes_sub hostOps1 V hostOps1_writes h

/-- The buffers the operations of `hostOps1_1` write, in order. -/
abbrev hostOps1_1_W : List (Ref sig .tc) := [main_call1_cst, main_call1_v0, main_v49]
theorem hostOps1_1_writes : (hostOps1_1 : List (HloOp τ sig (Elt F))).Forall fun op => op.writes ⊆ (hostOps1_1_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer none of them writes holds after the stretch what it held before. -/
theorem keep_hostOps1_1 (V : Valuation τ sig (Elt F)) (r : Ref sig .tc) (h : r ∉ hostOps1_1_W) :
    StableHlo.after hostOps1_1 V (Proc.devRef .tc r) = V (Proc.devRef .tc r) :=
  StableHlo.after_of_writes_sub hostOps1_1 V hostOps1_1_writes h

/-- The buffers the operations of `hostOps2` write, in order. -/
abbrev hostOps2_W : List (Ref sig .tc) := [main_c_10, main_v51, main_v52, main_c_11, main_v53, main_v54, main_v55, main_v56, main_v57, main_v58, main_v59, main_v60, main_cst_12, main_v61, main_v62, main_v63, main_v64, main_v65, main_v66]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer none of them writes holds after the stretch what it held before. -/
theorem keep_hostOps2 (V : Valuation τ sig (Elt F)) (r : Ref sig .tc) (h : r ∉ hostOps2_W) :
    StableHlo.after hostOps2 V (Proc.devRef .tc r) = V (Proc.devRef .tc r) :=
  StableHlo.after_of_writes_sub hostOps2 V hostOps2_writes h

/-- The buffers the operations of `hostOps2_1` write, in order. -/
abbrev hostOps2_1_W : List (Ref sig .tc) := [main_call2_cst, main_call2_v0, main_v67]
theorem hostOps2_1_writes : (hostOps2_1 : List (HloOp τ sig (Elt F))).Forall fun op => op.writes ⊆ (hostOps2_1_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer none of them writes holds after the stretch what it held before. -/
theorem keep_hostOps2_1 (V : Valuation τ sig (Elt F)) (r : Ref sig .tc) (h : r ∉ hostOps2_1_W) :
    StableHlo.after hostOps2_1 V (Proc.devRef .tc r) = V (Proc.devRef .tc r) :=
  StableHlo.after_of_writes_sub hostOps2_1 V hostOps2_1_writes h

/-- The buffers the operations of `hostOps3` write, in order. -/
abbrev hostOps3_W : List (Ref sig .tc) := [main_c_13, main_v69, main_v70, main_c_14, main_v71, main_v72, main_v73, main_v74, main_v75, main_v76, main_v77, main_v78, main_cst_15, main_v79, main_v80, main_v81, main_v82, main_v83, main_v84]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer none of them writes holds after the stretch what it held before. -/
theorem keep_hostOps3 (V : Valuation τ sig (Elt F)) (r : Ref sig .tc) (h : r ∉ hostOps3_W) :
    StableHlo.after hostOps3 V (Proc.devRef .tc r) = V (Proc.devRef .tc r) :=
  StableHlo.after_of_writes_sub hostOps3 V hostOps3_writes h

/-- The buffers the operations of `hostOps3_1` write, in order. -/
abbrev hostOps3_1_W : List (Ref sig .tc) := [main_call3_cst, main_call3_v0, main_v85]
theorem hostOps3_1_writes : (hostOps3_1 : List (HloOp τ sig (Elt F))).Forall fun op => op.writes ⊆ (hostOps3_1_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer none of them writes holds after the stretch what it held before. -/
theorem keep_hostOps3_1 (V : Valuation τ sig (Elt F)) (r : Ref sig .tc) (h : r ∉ hostOps3_1_W) :
    StableHlo.after hostOps3_1 V (Proc.devRef .tc r) = V (Proc.devRef .tc r) :=
  StableHlo.after_of_writes_sub hostOps3_1 V hostOps3_1_writes h

/-- The buffers the operations of `hostOps3_2` write, in order. -/
abbrev hostOps3_2_W : List (Ref sig .tc) := [main_cst_16, main_v86, main_v87, main_v88, main_cst_17, main_v89, main_cst_18, main_v90, main_v91, main_v92, main_cst_19, main_v93, main_v94, main_v95, main_v96, main_v97, main_v98, main_v99]
theorem hostOps3_2_writes : (hostOps3_2 : List (HloOp τ sig (Elt F))).Forall fun op => op.writes ⊆ (hostOps3_2_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- A buffer none of them writes holds after the stretch what it held before. -/
theorem keep_hostOps3_2 (V : Valuation τ sig (Elt F)) (r : Ref sig .tc) (h : r ∉ hostOps3_2_W) :
    StableHlo.after hostOps3_2 V (Proc.devRef .tc r) = V (Proc.devRef .tc r) :=
  StableHlo.after_of_writes_sub hostOps3_2 V hostOps3_2_writes h

end Cert.KernelIdeal.Keeps

end
-- ==== Proof.Stretches.lean ====
/-
  The stretches of host operations of the idealized kernel, each read as a function of the buffers it reads, over any
  buffer contents `V`: the edge endpoints with self-loops, the degree mask and the inverse square roots, their
  selection, the edge weights, the mean pooling, and the two classifier biases cast to rows. the three pairs of stretches that turn a dense
  product into a layer's output (the 19 plain operations, then the outlined relu), Each is the fold of the
  stretch's operations read at the result buffer; an outlined function's operations carry type transports along
  equations that hold by computation, which are removed before the two sides are compared.
-/
import proofs.«125149_j37984690766193_1_alg».proof.Proof.Gen.KernelIdeal.Launch
import proofs.«125149_j37984690766193_1_alg».proof.Proof.Spec
import Idealize.ShloMosaic.Lib.StableHlo.Run
import Idealize.ShloMosaic.PureOps.Ideal

set_option maxRecDepth 16384

noncomputable section

namespace Cert.KernelIdeal.Walk

open Cert.KernelIdeal Cert.KernelIdeal.Gen
open Cert.ReferenceIdeal.Spec
open Idealize.ShloMosaic Idealize.ShloMosaic.TcCoe Idealize.SL.Sem Idealize.ShloMosaic.StableHlo

/-- The mask "degree > 0" of the nodes. -/
def maskFn (d : (⟨S650000, .i32⟩ : BufTy).Contents (Elt Ideal)) : (⟨S50000, .i1⟩ : BufTy).Contents (Elt Ideal) :=
  cmpf (F := Ideal) .ogt (deg (F := Ideal) d) (broadcastInDim S50000 ![] bcast_S_S50000 (constant (F := Ideal) S_ .f32 0x00000000#32))
/-- The inverse square root of max(degree, 1). -/
def rsFn (d : (⟨S650000, .i32⟩ : BufTy).Contents (Elt Ideal)) : FVec Ideal S50000 .f32 :=
  Host.rsqrt (F := Ideal) (maximumf (deg (F := Ideal) d) (broadcastInDim S50000 ![] bcast_S_S50000 (constant (F := Ideal) S_ .f32 0x3F800000#32)))
/-- The selection between the two by the mask, 0 where the mask is off. -/
def whereFn (mk : (⟨S50000, .i1⟩ : BufTy).Contents (Elt Ideal)) (r : FVec Ideal S50000 .f32) (z : FVec Ideal S_ .f32) : FVec Ideal S50000 .f32 :=
  select mk r (broadcastInDim S50000 ![] bcast_S_S50000 (id z))
/-- The edge weights from the endpoints and the per-node factor. -/
def normFn (s d : (⟨S650000, .i32⟩ : BufTy).Contents (Elt Ideal)) (dv : FVec Ideal S50000 .f32) : FVec Ideal S650000 .f32 :=
  mulf (Host.gather gather_S50000_S650000x1_S650000_n_0_n_n_0_1_1 dv (broadcastInDim S650000x1 ![0] bcast_S650000_S650000x1_0 (wrap (F := Ideal) s))) (Host.gather gather_S50000_S650000x1_S650000_n_0_n_n_0_1_1 dv (broadcastInDim S650000x1 ![0] bcast_S650000_S650000x1_0 (wrap (F := Ideal) d)))

/-- The per-node factor assembled from its three pieces is `dinv`, and the weights over it are `norm`. -/
theorem normFn_eq (e : (⟨S2x600000, .i32⟩ : BufTy).Contents (Elt Ideal)) :
    normFn (src (F := Ideal) e) (dst (F := Ideal) e) (whereFn (maskFn (dst (F := Ideal) e)) (rsFn (dst (F := Ideal) e)) (constant (F := Ideal) S_ .f32 0x00000000#32))
      = norm (F := Ideal) (src (F := Ideal) e) (dst (F := Ideal) e) := rfl

/-- A layer before its relu: the rows of the product gathered at the sources, scaled by the edge weights, added up at
    the targets, and the bias added. -/
def preFn (hw : FVec Ideal S50000x256 .f32) (s d : (⟨S650000, .i32⟩ : BufTy).Contents (Elt Ideal)) (nrm : FVec Ideal S650000 .f32) (b : FVec Ideal S256 .f32) : FVec Ideal S50000x256 .f32 :=
  addf (Host.scatterAdd scatter_S50000x256_S650000x1_S650000x256_1_0_0_1 (broadcastInDim S50000x256 ![] bcast_S_S50000x256 (constant (F := Ideal) S_ .f32 0x00000000#32)) (broadcastInDim S650000x1 ![0] bcast_S650000_S650000x1_0 d) (mulf (Host.gather gather_S50000x256_S650000x1_S650000x256_1_0_n_n_0_1_1256 hw (broadcastInDim S650000x1 ![0] bcast_S650000_S650000x1_0 (wrap (F := Ideal) s))) (broadcastInDim S650000x256 ![0, 1] bcast_S650000x1_S650000x256_0_1 (broadcastInDim S650000x1 ![0] bcast_S650000_S650000x1_0 nrm)))) (broadcastInDim S50000x256 ![0, 1] bcast_S1x256_S50000x256_0_1 (broadcastInDim S1x256 ![1] bcast_S256_S1x256_1 b))
/-- The maximum with 0, as the outlined function spells it. -/
def reluFn (x : FVec Ideal S50000x256 .f32) : FVec Ideal S50000x256 .f32 :=
  maximumf x (broadcastInDim S50000x256 ![] bcast_S_S50000x256 (constant (F := Ideal) S_ .f32 0x00000000#32))
/-- The two together are the specification's layer. -/
theorem layer_eq (hw : FVec Ideal S50000x256 .f32) (s d : (⟨S650000, .i32⟩ : BufTy).Contents (Elt Ideal)) (nrm : FVec Ideal S650000 .f32) (b : FVec Ideal S256 .f32) :
    reluFn (preFn hw s d nrm b) = layer (F := Ideal) hw s d nrm b := rfl

section Stretches
variable (V : Valuation τ sig (Elt Ideal))

set_option maxHeartbeats 8000000 in
theorem s0_v3 : StableHlo.after hostOps0 V (Proc.devRef .tc main_v3) = src (F := Ideal) (V (Proc.devRef .tc main_arg1)) := by after_results_simp <;> rfl
set_option maxHeartbeats 8000000 in
theorem s0_v6 : StableHlo.after hostOps0 V (Proc.devRef .tc main_v6) = dst (F := Ideal) (V (Proc.devRef .tc main_arg1)) := by after_results_simp <;> rfl
set_option maxHeartbeats 8000000 in
theorem s0_v12 : StableHlo.after hostOps0 V (Proc.devRef .tc main_v12) = maskFn (dst (F := Ideal) (V (Proc.devRef .tc main_arg1))) := by after_results_simp <;> rfl
set_option maxHeartbeats 8000000 in
theorem s0_v15 : StableHlo.after hostOps0 V (Proc.devRef .tc main_v15) = rsFn (dst (F := Ideal) (V (Proc.devRef .tc main_arg1))) := by after_results_simp <;> rfl
set_option maxHeartbeats 8000000 in
theorem s0_cst3 : StableHlo.after hostOps0 V (Proc.devRef .tc main_cst_3) = constant (F := Ideal) S_ .f32 0x00000000#32 := by after_results_simp <;> rfl
set_option maxHeartbeats 8000000 in
theorem s01_v16 : StableHlo.after hostOps0_1 V (Proc.devRef .tc main_v16) = whereFn (V (Proc.devRef .tc main_v12)) (V (Proc.devRef .tc main_v15)) (V (Proc.devRef .tc main_cst_3)) := by
  after_results_simp
  simp only [TRef.toBuf, TRef.ofBuf, cast_eq]
  rfl
set_option maxHeartbeats 8000000 in
theorem s02_v31 : StableHlo.after hostOps0_2 V (Proc.devRef .tc main_v31) = normFn (V (Proc.devRef .tc main_v3)) (V (Proc.devRef .tc main_v6)) (V (Proc.devRef .tc main_v16)) := by after_results_simp <;> rfl

set_option maxHeartbeats 8000000 in
/-- Stretch `hostOps1`: the layer of the product in `main_v32` before its relu, -/
theorem pre_stretch1 : StableHlo.after hostOps1 V (Proc.devRef .tc main_v48)
    = preFn (V (Proc.devRef .tc main_v32)) (V (Proc.devRef .tc main_v3)) (V (Proc.devRef .tc main_v6)) (V (Proc.devRef .tc main_v31)) (V (Proc.devRef .tc main_arg4)) := by after_results_simp <;> rfl
set_option maxHeartbeats 8000000 in
/-- stretch `hostOps1_1`: the outlined relu, -/
theorem relu_stretch1 : StableHlo.after hostOps1_1 V (Proc.devRef .tc main_v49) = reluFn (V (Proc.devRef .tc main_v48)) := by
  after_results_simp
  simp only [TRef.toBuf, TRef.ofBuf, cast_eq]
  rfl
/-- and the two in sequence: one graph layer. -/
theorem layer_stretch1 : StableHlo.after hostOps1_1 (StableHlo.after hostOps1 V) (Proc.devRef .tc main_v49)
    = layer (F := Ideal) (V (Proc.devRef .tc main_v32)) (V (Proc.devRef .tc main_v3)) (V (Proc.devRef .tc main_v6)) (V (Proc.devRef .tc main_v31)) (V (Proc.devRef .tc main_arg4)) := by
  rw [relu_stretch1, pre_stretch1]
  exact layer_eq _ _ _ _ _

set_option maxHeartbeats 8000000 in
/-- Stretch `hostOps2`: the layer of the product in `main_v50` before its relu, -/
theorem pre_stretch2 : StableHlo.after hostOps2 V (Proc.devRef .tc main_v66)
    = preFn (V (Proc.devRef .tc main_v50)) (V (Proc.devRef .tc main_v3)) (V (Proc.devRef .tc main_v6)) (V (Proc.devRef .tc main_v31)) (V (Proc.devRef .tc main_arg6)) := by after_results_simp <;> rfl
set_option maxHeartbeats 8000000 in
/-- stretch `hostOps2_1`: the outlined relu, -/
theorem relu_stretch2 : StableHlo.after hostOps2_1 V (Proc.devRef .tc main_v67) = reluFn (V (Proc.devRef .tc main_v66)) := by
  after_results_simp
  simp only [TRef.toBuf, TRef.ofBuf, cast_eq]
  rfl
/-- and the two in sequence: one graph layer. -/
theorem layer_stretch2 : StableHlo.after hostOps2_1 (StableHlo.after hostOps2 V) (Proc.devRef .tc main_v67)
    = layer (F := Ideal) (V (Proc.devRef .tc main_v50)) (V (Proc.devRef .tc main_v3)) (V (Proc.devRef .tc main_v6)) (V (Proc.devRef .tc main_v31)) (V (Proc.devRef .tc main_arg6)) := by
  rw [relu_stretch2, pre_stretch2]
  exact layer_eq _ _ _ _ _

set_option maxHeartbeats 8000000 in
/-- Stretch `hostOps3`: the layer of the product in `main_v68` before its relu, -/
theorem pre_stretch3 : StableHlo.after hostOps3 V (Proc.devRef .tc main_v84)
    = preFn (V (Proc.devRef .tc main_v68)) (V (Proc.devRef .tc main_v3)) (V (Proc.devRef .tc main_v6)) (V (Proc.devRef .tc main_v31)) (V (Proc.devRef .tc main_arg8)) := by after_results_simp <;> rfl
set_option maxHeartbeats 8000000 in
/-- stretch `hostOps3_1`: the outlined relu, -/
theorem relu_stretch3 : StableHlo.after hostOps3_1 V (Proc.devRef .tc main_v85) = reluFn (V (Proc.devRef .tc main_v84)) := by
  after_results_simp
  simp only [TRef.toBuf, TRef.ofBuf, cast_eq]
  rfl
/-- and the two in sequence: one graph layer. -/
theorem layer_stretch3 : StableHlo.after hostOps3_1 (StableHlo.after hostOps3 V) (Proc.devRef .tc main_v85)
    = layer (F := Ideal) (V (Proc.devRef .tc main_v68)) (V (Proc.devRef .tc main_v3)) (V (Proc.devRef .tc main_v6)) (V (Proc.devRef .tc main_v31)) (V (Proc.devRef .tc main_arg8)) := by
  rw [relu_stretch3, pre_stretch3]
  exact layer_eq _ _ _ _ _

set_option maxHeartbeats 8000000 in
/-- The last stretch: the mean of the node features over each graph, -/
theorem s32_v97 : StableHlo.after hostOps3_2 V (Proc.devRef .tc main_v97) = meanPool (F := Ideal) (V (Proc.devRef .tc main_v85)) (V (Proc.devRef .tc main_arg2)) := by after_results_simp <;> rfl
set_option maxHeartbeats 8000000 in
/-- and the two classifier biases cast to one-row arrays. -/
theorem s32_v98 : StableHlo.after hostOps3_2 V (Proc.devRef .tc main_v98) = shapeCast S1x128 (V (Proc.devRef .tc main_arg10)) shapeCasts_S128_S1x128 := by after_results_simp <;> rfl
set_option maxHeartbeats 8000000 in
theorem s32_v99 : StableHlo.after hostOps3_2 V (Proc.devRef .tc main_v99) = shapeCast S1x16 (V (Proc.devRef .tc main_arg12)) shapeCasts_S16_S1x16 := by after_results_simp <;> rfl

end Stretches

end Cert.KernelIdeal.Walk

end
-- ==== Proof.Matmul0.lean ====
/-
  Kernel region 0 of the idealized kernel: the dense product  h · W  of an array  h : [50000, 256]  with a weight matrix
  W : [256, 256], computed in ten row blocks of 5000 rows. Grid point t loads rows 5000·t … 5000·t + 4999 of h and the
  whole of W, multiplies them into a zero accumulator, and writes the result back as rows 5000·t … 5000·t + 4999 of the
  output. At the ideal values entry (p, q) of a block's product is  ∑ₖ h(5000·t + p, k) · W(k, q),  entry
  (5000·t + p, q) of the whole product: every block is the restriction of ONE function of the whole arrays
  (`Dense.prod`), and the ten blocks cover the output, so after the region the output array IS that function of the
  two input arrays — whatever the buffers held when the region was entered (`V`).
-/
import proofs.«125149_j37984690766193_1_alg».proof.Proof.Gen.KernelIdeal.Frame
import proofs.«125149_j37984690766193_1_alg».proof.Proof.Dense
import Idealize.ShloMosaic.Lib.Pipeline.Value
import Idealize.ShloMosaic.Lib.ValueIdx

set_option maxRecDepth 16384

noncomputable section

open scoped BigOperators

namespace Cert.KernelIdeal.Matmul0

open Cert.KernelIdeal Cert.KernelIdeal.Gen Cert.Dense
open Idealize.ShloMosaic Idealize.ShloMosaic.TcCoe Idealize.ShloMosaic.ValueIdx
open Idealize.SL Idealize.SL.Sem
open Idealize.ShloMosaic.Pipeline (Dat Cfg Window)

/-- The zero offsets of a whole-block access. -/
theorem hz : (![0, 0] : Fin 2 → Nat) = fun _ => 0 := funext fun a => by fin_cases a <;> rfl

/-- The body's arithmetic at (p, q), when row p of the left block is row r of x and the right block is w. -/
theorem payload_apply (X : FVec Ideal S5000x256 .f32) (W : FVec Ideal S256x256 .f32)
    (x : FVec Ideal S50000x256 .f32) (w : FVec Ideal S256x256 .f32) (p : Fin 5000) (q : Fin 256) (r : Fin 50000)
    (hX : ∀ k : Fin 256, X (ix2 p k) = x (ix2 r k)) (hW : ∀ k : Fin 256, W (ix2 k q) = w (ix2 k q)) :
    k0_pay1 (F := Ideal) X W (ix2 p q) = prodAt x w r q := by
  unfold k0_pay1
  exact blockProd_apply _ rfl X W x w p q r hX hW

variable (V : (c : Dev nD) → (b : Ref sig .tc) → Buf (Elt Ideal) ((c : Thread nD τ).loc b))

/-- The printed index maps over the grid: the row-block index of the left operand and of the output is the point's
    number, every other block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the whole product of the two input arrays as the region finds them. -/
theorem flushed_eq (c : Dev nD) (t : Fin cfg0.N) :
    (dat0 V c).flushed 2 t
      = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x256) hz]
  obtain ⟨e0, e1, e2, e3, e4, e5⟩ := idx_facts t
  have hN : t.val < 10 := lt_of_lt_of_eq t.isLt N_0
  funext j
  obtain ⟨p, q, rfl⟩ : ∃ (p : Fin 5000) (q : Fin 256), j = ix2 p q := ⟨j 0, j 1, eq_ix2 j⟩
  have hr : 5000 * t.val + p.val < 50000 := by have := p.isLt; omega
  show k0_pay1 (F := Ideal) (iblk0 V c 0 t) (iblk0 V c 1 t) (ix2 p q)
      = prod (V c main_arg0) (V c main_arg3) (((cfg0.win 2).blk t).view.emb (ix2 p q))
  refine (payload_apply (iblk0 V c 0 t) (iblk0 V c 1 t) (V c main_arg0) (V c main_arg3) p q ⟨5000 * t.val + p.val, hr⟩
    (fun k => ?_) (fun k => ?_)).trans ?_
  · unfold iblk0
    rw [View.read_apply]
    show V c main_arg0 _ = V c main_arg0 _
    congr 1
    funext a
    apply Fin.ext
    match a with
    | ⟨0, _⟩ => show win0_0.index t (0 : Fin 2) * 5000 + 1 * p.val = 5000 * t.val + p.val; rw [e0]; omega
    | ⟨1, _⟩ => show win0_0.index t (1 : Fin 2) * 256 + 1 * k.val = k.val; rw [e1]; omega
  · unfold iblk0
    rw [View.read_apply]
    show V c main_arg3 _ = V c main_arg3 _
    congr 1
    funext a
    apply Fin.ext
    match a with
    | ⟨0, _⟩ => show win0_1.index t (0 : Fin 2) * 256 + 1 * k.val = k.val; rw [e2]; omega
    | ⟨1, _⟩ => show win0_1.index t (1 : Fin 2) * 256 + 1 * q.val = q.val; rw [e3]; omega
  · show prodAt _ _ _ _ = prodAt _ _ _ _
    congr 1 <;> apply Fin.ext
    · show 5000 * t.val + p.val = win0_2.index t (0 : Fin 2) * 5000 + 1 * p.val; rw [e4]; omega
    · show q.val = win0_2.index t (1 : Fin 2) * 256 + 1 * q.val; rw [e5]; omega

/-- An index of the output array is in point t's block iff each coordinate is in the block's range on its axis. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v32).slice (win0_2.rect t)).set ↔ _
  rw [View.set_slice_whole, Rect.mem_set_unit]
  exact Iff.rfl

/-- THE OUTPUT ARRAY after the region is the whole product: row r lies in the block of point r / 5000. -/
theorem region_array (c : Dev nD) : (dat0 V c).arrAt 2 cfg0.N = prod (V c main_arg0) (V c main_arg3) :=
  (dat0 V c).arrAt_eq_of_cover 2 (prod (V c main_arg0) (V c main_arg3)) (fun t _ => flushed_eq V c t) fun i => by
    have hi0 : (i 0).val < 50000 := (i 0).isLt
    have hi1 : (i 1).val < 256 := (i 1).isLt
    have ht : (i 0).val / 5000 < cfg0.N := by rw [show cfg0.N = 10 from N_0]; omega
    obtain ⟨e0, e1, e2, e3, e4, e5⟩ := idx_facts ⟨(i 0).val / 5000, ht⟩
    refine ⟨⟨(i 0).val / 5000, ht⟩, flush0_2 _, ?_⟩
    rw [mem_blk]
    intro a
    match a with
    | ⟨0, _⟩ =>
      show win0_2.index ⟨(i 0).val / 5000, ht⟩ (0 : Fin 2) * 5000 ≤ (i 0).val ∧ (i 0).val < win0_2.index ⟨(i 0).val / 5000, ht⟩ (0 : Fin 2) * 5000 + 5000
      rw [e4]; show (i 0).val / 5000 * 5000 ≤ (i 0).val ∧ (i 0).val < (i 0).val / 5000 * 5000 + 5000; omega
    | ⟨1, _⟩ =>
      show win0_2.index ⟨(i 0).val / 5000, ht⟩ (1 : Fin 2) * 256 ≤ (i 1).val ∧ (i 1).val < win0_2.index ⟨(i 0).val / 5000, ht⟩ (1 : Fin 2) * 256 + 256
      rw [e5]; omega

end Cert.KernelIdeal.Matmul0

end
-- ==== Proof.Matmul1.lean ====
/-
  Kernel region 1 of the idealized kernel: the dense product  h · W  of an array  h : [50000, 256]  with a weight matrix
  W : [256, 256], computed in ten row blocks of 5000 rows. Grid point t loads rows 5000·t … 5000·t + 4999 of h and the
  whole of W, multiplies them into a zero accumulator, and writes the result back as rows 5000·t … 5000·t + 4999 of the
  output. At the ideal values entry (p, q) of a block's product is  ∑ₖ h(5000·t + p, k) · W(k, q),  entry
  (5000·t + p, q) of the whole product: every block is the restriction of ONE function of the whole arrays
  (`Dense.prod`), and the ten blocks cover the output, so after the region the output array IS that function of the
  two input arrays — whatever the buffers held when the region was entered (`V`).
-/
import proofs.«125149_j37984690766193_1_alg».proof.Proof.Gen.KernelIdeal.Frame
import proofs.«125149_j37984690766193_1_alg».proof.Proof.Dense
import Idealize.ShloMosaic.Lib.Pipeline.Value
import Idealize.ShloMosaic.Lib.ValueIdx

set_option maxRecDepth 16384

noncomputable section

open scoped BigOperators

namespace Cert.KernelIdeal.Matmul1

open Cert.KernelIdeal Cert.KernelIdeal.Gen Cert.Dense
open Idealize.ShloMosaic Idealize.ShloMosaic.TcCoe Idealize.ShloMosaic.ValueIdx
open Idealize.SL Idealize.SL.Sem
open Idealize.ShloMosaic.Pipeline (Dat Cfg Window)

/-- The zero offsets of a whole-block access. -/
theorem hz : (![0, 0] : Fin 2 → Nat) = fun _ => 0 := funext fun a => by fin_cases a <;> rfl

/-- The body's arithmetic at (p, q), when row p of the left block is row r of x and the right block is w. -/
theorem payload_apply (X : FVec Ideal S5000x256 .f32) (W : FVec Ideal S256x256 .f32)
    (x : FVec Ideal S50000x256 .f32) (w : FVec Ideal S256x256 .f32) (p : Fin 5000) (q : Fin 256) (r : Fin 50000)
    (hX : ∀ k : Fin 256, X (ix2 p k) = x (ix2 r k)) (hW : ∀ k : Fin 256, W (ix2 k q) = w (ix2 k q)) :
    k1_pay1 (F := Ideal) X W (ix2 p q) = prodAt x w r q := by
  unfold k1_pay1
  rw [shapeCast_self]
  exact blockProd_apply _ rfl X W x w p q r hX hW

variable (V : (c : Dev nD) → (b : Ref sig .tc) → Buf (Elt Ideal) ((c : Thread nD τ).loc b))

/-- The printed index maps over the grid: the row-block index of the left operand and of the output is the point's
    number, every other block index is 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT t WRITES BACK is block t of the whole product of the two input arrays as the region finds them. -/
theorem flushed_eq (c : Dev nD) (t : Fin cfg1.N) :
    (dat1 V c).flushed 2 t
      = ((cfg1.win 2).blk t).view.read (Elt Ideal) (prod (V c main_v49) (V c main_arg5)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x256) hz]
  obtain ⟨e0, e1, e2, e3, e4, e5⟩ := idx_facts t
  have hN : t.val < 10 := lt_of_lt_of_eq t.isLt N_1
  funext j
  obtain ⟨p, q, rfl⟩ : ∃ (p : Fin 5000) (q : Fin 256), j = ix2 p q := ⟨j 0, j 1, eq_ix2 j⟩
  have hr : 5000 * t.val + p.val < 50000 := by have := p.isLt; omega
  show k1_pay1 (F := Ideal) (iblk1 V c 0 t) (iblk1 V c 1 t) (ix2 p q)
      = prod (V c main_v49) (V c main_arg5) (((cfg1.win 2).blk t).view.emb (ix2 p q))
  refine (payload_apply (iblk1 V c 0 t) (iblk1 V c 1 t) (V c main_v49) (V c main_arg5) p q ⟨5000 * t.val + p.val, hr⟩
    (fun k => ?_) (fun k => ?_)).trans ?_
  · unfold iblk1
    rw [View.read_apply]
    show V c main_v49 _ = V c main_v49 _
    congr 1
    funext a
    apply Fin.ext
    match a with
    | ⟨0, _⟩ => show win1_0.index t (0 : Fin 2) * 5000 + 1 * p.val = 5000 * t.val + p.val; rw [e0]; omega
    | ⟨1, _⟩ => show win1_0.index t (1 : Fin 2) * 256 + 1 * k.val = k.val; rw [e1]; omega
  · unfold iblk1
    rw [View.read_apply]
    show V c main_arg5 _ = V c main_arg5 _
    congr 1
    funext a
    apply Fin.ext
    match a with
    | ⟨0, _⟩ => show win1_1.index t (0 : Fin 2) * 256 + 1 * k.val = k.val; rw [e2]; omega
    | ⟨1, _⟩ => show win1_1.index t (1 : Fin 2) * 256 + 1 * q.val = q.val; rw [e3]; omega
  · show prodAt _ _ _ _ = prodAt _ _ _ _
    congr 1 <;> apply Fin.ext
    · show 5000 * t.val + p.val = win1_2.index t (0 : Fin 2) * 5000 + 1 * p.val; rw [e4]; omega
    · show q.val = win1_2.index t (1 : Fin 2) * 256 + 1 * q.val; rw [e5]; omega

/-- An index of the output array is in point t's block iff each coordinate is in the block's range on its axis. -/
theorem mem_blk (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v50).slice (win1_2.rect t)).set ↔ _
  rw [View.set_slice_whole, Rect.mem_set_unit]
  exact Iff.rfl

/-- THE OUTPUT ARRAY after the region is the whole product: row r lies in the block of point r / 5000. -/
theorem region_array (c : Dev nD) : (dat1 V c).arrAt 2 cfg1.N = prod (V c main_v49) (V c main_arg5) :=
  (dat1 V c).arrAt_eq_of_cover 2 (prod (V c main_v49) (V c main_arg5)) (fun t _ => flushed_eq V c t) fun i => by
    have hi0 : (i 0).val < 50000 := (i 0).isLt
    have hi1 : (i 1).val < 256 := (i 1).isLt
    have ht : (i 0).val / 5000 < cfg1.N := by rw [show cfg1.N = 10 from N_1]; omega
    obtain ⟨e0, e1, e2, e3, e4, e5⟩ := idx_facts ⟨(i 0).val / 5000, ht⟩
    refine ⟨⟨(i 0).val / 5000, ht⟩, flush1_2 _, ?_⟩
    rw [mem_blk]
    intro a
    match a with
    | ⟨0, _⟩ =>
      show win1_2.index ⟨(i 0).val / 5000, ht⟩ (0 : Fin 2) * 5000 ≤ (i 0).val ∧ (i 0).val < win1_2.index ⟨(i 0).val / 5000, ht⟩ (0 : Fin 2) * 5000 + 5000
      rw [e4]; show (i 0).val / 5000 * 5000 ≤ (i 0).val ∧ (i 0).val < (i 0).val / 5000 * 5000 + 5000; omega
    | ⟨1, _⟩ =>
      show win1_2.index ⟨(i 0).val / 5000, ht⟩ (1 : Fin 2) * 256 ≤ (i 1).val ∧ (i 1).val < win1_2.index ⟨(i 0).val / 5000, ht⟩ (1 : Fin 2) * 256 + 256
      rw [e5]; omega

end Cert.KernelIdeal.Matmul1

end
-- ==== Proof.Matmul2.lean ====
/-
  Kernel region 2 of the idealized kernel: the dense product  h · W  of an array  h : [50000, 256]  with a weight matrix
  W : [256, 256], computed in ten row blocks of 5000 rows. Grid point t loads rows 5000·t … 5000·t + 4999 of h and the
  whole of W, multiplies them into a zero accumulator, and writes the result back as rows 5000·t … 5000·t + 4999 of the
  output. At the ideal values entry (p, q) of a block's product is  ∑ₖ h(5000·t + p, k) · W(k, q),  entry
  (5000·t + p, q) of the whole product: every block is the restriction of ONE function of the whole arrays
  (`Dense.prod`), and the ten blocks cover the output, so after the region the output array IS that function of the
  two input arrays — whatever the buffers held when the region was entered (`V`).
-/
import proofs.«125149_j37984690766193_1_alg».proof.Proof.Gen.KernelIdeal.Frame
import proofs.«125149_j37984690766193_1_alg».proof.Proof.Dense
import Idealize.ShloMosaic.Lib.Pipeline.Value
import Idealize.ShloMosaic.Lib.ValueIdx

set_option maxRecDepth 16384

noncomputable section

open scoped BigOperators

namespace Cert.KernelIdeal.Matmul2

open Cert.KernelIdeal Cert.KernelIdeal.Gen Cert.Dense
open Idealize.ShloMosaic Idealize.ShloMosaic.TcCoe Idealize.ShloMosaic.ValueIdx
open Idealize.SL Idealize.SL.Sem
open Idealize.ShloMosaic.Pipeline (Dat Cfg Window)

/-- The zero offsets of a whole-block access. -/
theorem hz : (![0, 0] : Fin 2 → Nat) = fun _ => 0 := funext fun a => by fin_cases a <;> rfl

/-- The body's arithmetic at (p, q), when row p of the left block is row r of x and the right block is w. -/
theorem payload_apply (X : FVec Ideal S5000x256 .f32) (W : FVec Ideal S256x256 .f32)
    (x : FVec Ideal S50000x256 .f32) (w : FVec Ideal S256x256 .f32) (p : Fin 5000) (q : Fin 256) (r : Fin 50000)
    (hX : ∀ k : Fin 256, X (ix2 p k) = x (ix2 r k)) (hW : ∀ k : Fin 256, W (ix2 k q) = w (ix2 k q)) :
    k2_pay1 (F := Ideal) X W (ix2 p q) = prodAt x w r q := by
  unfold k2_pay1
  rw [shapeCast_self]
  exact blockProd_apply _ rfl X W x w p q r hX hW

variable (V : (c : Dev nD) → (b : Ref sig .tc) → Buf (Elt Ideal) ((c : Thread nD τ).loc b))

/-- The printed index maps over the grid: the row-block index of the left operand and of the output is the point's
    number, every other block index is 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT t WRITES BACK is block t of the whole product of the two input arrays as the region finds them. -/
theorem flushed_eq (c : Dev nD) (t : Fin cfg2.N) :
    (dat2 V c).flushed 2 t
      = ((cfg2.win 2).blk t).view.read (Elt Ideal) (prod (V c main_v67) (V c main_arg7)) := by
  show (cfg2.win 2).cut (grid2.coords t) ((dat2 V c).after 2 t) = _
  rw [after2_2]
  unfold out2_2
  rw [View.canon_unit_zero hz]
  simp only [View.ld_unit_zero (S := S5000x256) hz, View.ld_unit_zero (S := S256x256) hz]
  obtain ⟨e0, e1, e2, e3, e4, e5⟩ := idx_facts t
  have hN : t.val < 10 := lt_of_lt_of_eq t.isLt N_2
  funext j
  obtain ⟨p, q, rfl⟩ : ∃ (p : Fin 5000) (q : Fin 256), j = ix2 p q := ⟨j 0, j 1, eq_ix2 j⟩
  have hr : 5000 * t.val + p.val < 50000 := by have := p.isLt; omega
  show k2_pay1 (F := Ideal) (iblk2 V c 0 t) (iblk2 V c 1 t) (ix2 p q)
      = prod (V c main_v67) (V c main_arg7) (((cfg2.win 2).blk t).view.emb (ix2 p q))
  refine (payload_apply (iblk2 V c 0 t) (iblk2 V c 1 t) (V c main_v67) (V c main_arg7) p q ⟨5000 * t.val + p.val, hr⟩
    (fun k => ?_) (fun k => ?_)).trans ?_
  · unfold iblk2
    rw [View.read_apply]
    show V c main_v67 _ = V c main_v67 _
    congr 1
    funext a
    apply Fin.ext
    match a with
    | ⟨0, _⟩ => show win2_0.index t (0 : Fin 2) * 5000 + 1 * p.val = 5000 * t.val + p.val; rw [e0]; omega
    | ⟨1, _⟩ => show win2_0.index t (1 : Fin 2) * 256 + 1 * k.val = k.val; rw [e1]; omega
  · unfold iblk2
    rw [View.read_apply]
    show V c main_arg7 _ = V c main_arg7 _
    congr 1
    funext a
    apply Fin.ext
    match a with
    | ⟨0, _⟩ => show win2_1.index t (0 : Fin 2) * 256 + 1 * k.val = k.val; rw [e2]; omega
    | ⟨1, _⟩ => show win2_1.index t (1 : Fin 2) * 256 + 1 * q.val = q.val; rw [e3]; omega
  · show prodAt _ _ _ _ = prodAt _ _ _ _
    congr 1 <;> apply Fin.ext
    · show 5000 * t.val + p.val = win2_2.index t (0 : Fin 2) * 5000 + 1 * p.val; rw [e4]; omega
    · show q.val = win2_2.index t (1 : Fin 2) * 256 + 1 * q.val; rw [e5]; omega

/-- An index of the output array is in point t's block iff each coordinate is in the block's range on its axis. -/
theorem mem_blk (t : Fin cfg2.N) (i : S50000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v68).slice (win2_2.rect t)).set ↔ _
  rw [View.set_slice_whole, Rect.mem_set_unit]
  exact Iff.rfl

/-- THE OUTPUT ARRAY after the region is the whole product: row r lies in the block of point r / 5000. -/
theorem region_array (c : Dev nD) : (dat2 V c).arrAt 2 cfg2.N = prod (V c main_v67) (V c main_arg7) :=
  (dat2 V c).arrAt_eq_of_cover 2 (prod (V c main_v67) (V c main_arg7)) (fun t _ => flushed_eq V c t) fun i => by
    have hi0 : (i 0).val < 50000 := (i 0).isLt
    have hi1 : (i 1).val < 256 := (i 1).isLt
    have ht : (i 0).val / 5000 < cfg2.N := by rw [show cfg2.N = 10 from N_2]; omega
    obtain ⟨e0, e1, e2, e3, e4, e5⟩ := idx_facts ⟨(i 0).val / 5000, ht⟩
    refine ⟨⟨(i 0).val / 5000, ht⟩, flush2_2 _, ?_⟩
    rw [mem_blk]
    intro a
    match a with
    | ⟨0, _⟩ =>
      show win2_2.index ⟨(i 0).val / 5000, ht⟩ (0 : Fin 2) * 5000 ≤ (i 0).val ∧ (i 0).val < win2_2.index ⟨(i 0).val / 5000, ht⟩ (0 : Fin 2) * 5000 + 5000
      rw [e4]; show (i 0).val / 5000 * 5000 ≤ (i 0).val ∧ (i 0).val < (i 0).val / 5000 * 5000 + 5000; omega
    | ⟨1, _⟩ =>
      show win2_2.index ⟨(i 0).val / 5000, ht⟩ (1 : Fin 2) * 256 ≤ (i 1).val ∧ (i 1).val < win2_2.index ⟨(i 0).val / 5000, ht⟩ (1 : Fin 2) * 256 + 256
      rw [e5]; omega

end Cert.KernelIdeal.Matmul2

end
-- ==== Proof.Walk.lean ====
/-
  The idealized kernel's result as a function of its arguments: the buffer contents followed through the program's
  fourteen segments. The first three stretches of host operations compute the edge endpoints (with self-loops) and the
  edge weights from the edge list; region 0 multiplies the node features by the first weight matrix; two stretches
  turn that product into the first layer's output (gather at the sources, scale, scatter-add at the targets, bias,
  relu); regions 1, 2 and their stretches do the same for the second and third layers; the last stretch pools the node
  features by graph and casts the two classifier biases to rows; region 3 is the classifier. A value computed early is
  read many segments later, so each boundary is compared with region 0's entry on the buffers still to be read
  (`Agree`). The outcome (`kernel_value`): the result array ends at `Spec.forward` over the blockwise product's
  whole-array function and the classifier body's arithmetic.
-/
import proofs.«125149_j37984690766193_1_alg».proof.Proof.Gen.KernelIdeal.Frame
import proofs.«125149_j37984690766193_1_alg».proof.Proof.Keeps
import proofs.«125149_j37984690766193_1_alg».proof.Proof.Spec
import proofs.«125149_j37984690766193_1_alg».proof.Proof.Stretches
import proofs.«125149_j37984690766193_1_alg».proof.Proof.Dense
import proofs.«125149_j37984690766193_1_alg».proof.Proof.Matmul0
import proofs.«125149_j37984690766193_1_alg».proof.Proof.Matmul1
import proofs.«125149_j37984690766193_1_alg».proof.Proof.Matmul2
import proofs.«125149_j37984690766193_1_alg».proof.Proof.Classifier
import Idealize.ShloMosaic.Lib.StableHlo.Run
import Idealize.ShloMosaic.PureOps.Ideal

set_option maxRecDepth 16384

noncomputable section

namespace Cert.KernelIdeal.Walk

open Cert.KernelIdeal Cert.KernelIdeal.Gen Cert.KernelIdeal.Keeps
open Cert.ReferenceIdeal.Spec
open Idealize.ShloMosaic Idealize.ShloMosaic.TcCoe Idealize.SL.Sem Idealize.ShloMosaic.StableHlo

/-! ## The boundaries -/

variable (m : (ℓ : Loc nD τ sig) → Buf (Elt Ideal) ℓ) (ρ : Dev nD → PrngReg)

/-- A buffer none of the first three stretches writes holds at region 0's entry what it held at launch. -/
theorem W3_keep (c : Dev nD) (r : Ref sig .tc) (h0 : r ∉ hostOps0_W) (h1 : r ∉ hostOps0_1_W) (h2 : r ∉ hostOps0_2_W) :
    W3 m ρ c (Proc.devRef .tc r) = m ((c : Thread nD τ).loc r) :=
  (keep_hostOps0_2 _ r h2).trans ((keep_hostOps0_1 _ r h1).trans ((keep_hostOps0 _ r h0).trans rfl))

theorem W1_arg1 (c : Dev nD) : W0 m ρ c (Proc.devRef .tc main_arg1) = (m ((c : Thread nD τ).loc main_arg1)) := rfl

/-- At region 0's entry: the edge sources, -/
theorem W3_v3 (c : Dev nD) : W3 m ρ c (Proc.devRef .tc main_v3) = (src (m ((c : Thread nD τ).loc main_arg1))) :=
  (keep_hostOps0_2 _ main_v3 (by decide)).trans ((keep_hostOps0_1 _ main_v3 (by decide)).trans (s0_v3 (W0 m ρ c)))
/-- the edge targets, -/
theorem W3_v6 (c : Dev nD) : W3 m ρ c (Proc.devRef .tc main_v6) = (dst (m ((c : Thread nD τ).loc main_arg1))) :=
  (keep_hostOps0_2 _ main_v6 (by decide)).trans ((keep_hostOps0_1 _ main_v6 (by decide)).trans (s0_v6 (W0 m ρ c)))
/-- and the edge weights. -/
theorem W3_v31 (c : Dev nD) : W3 m ρ c (Proc.devRef .tc main_v31) = (norm (src (m ((c : Thread nD τ).loc main_arg1))) (dst (m ((c : Thread nD τ).loc main_arg1)))) := by
  refine (s02_v31 (W2 m ρ c)).trans ?_
  rw [show W2 m ρ c (Proc.devRef .tc main_v3) = (src (m ((c : Thread nD τ).loc main_arg1))) from (keep_hostOps0_1 _ main_v3 (by decide)).trans (s0_v3 (W0 m ρ c)),
    show W2 m ρ c (Proc.devRef .tc main_v6) = (dst (m ((c : Thread nD τ).loc main_arg1))) from (keep_hostOps0_1 _ main_v6 (by decide)).trans (s0_v6 (W0 m ρ c)),
    show W2 m ρ c (Proc.devRef .tc main_v16) = whereFn (maskFn (dst (m ((c : Thread nD τ).loc main_arg1)))) (rsFn (dst (m ((c : Thread nD τ).loc main_arg1)))) (constant (F := Ideal) S_ .f32 0x00000000#32) from by
      refine (s01_v16 (W1 m ρ c)).trans ?_
      rw [show W1 m ρ c (Proc.devRef .tc main_v12) = maskFn (dst (m ((c : Thread nD τ).loc main_arg1))) from s0_v12 (W0 m ρ c),
        show W1 m ρ c (Proc.devRef .tc main_v15) = rsFn (dst (m ((c : Thread nD τ).loc main_arg1))) from s0_v15 (W0 m ρ c),
        show W1 m ρ c (Proc.devRef .tc main_cst_3) = (constant (F := Ideal) S_ .f32 0x00000000#32) from s0_cst3 (W0 m ρ c)]]
  exact normFn_eq _

/-- `W` holds on the buffers of `L` what region 0's entry held. -/
def Agree (L : List (Ref sig .tc)) (c : Dev nD) (W : Valuation τ sig (Elt Ideal)) : Prop :=
  ∀ r ∈ L, W (Proc.devRef .tc r) = W3 m ρ c (Proc.devRef .tc r)

/-- The buffers read after region 0: the edge data, the graph ids, the biases, the later weights. -/
abbrev L3 : List (Ref sig .tc) := [main_v3, main_v6, main_v31, main_arg2, main_arg4, main_arg5, main_arg6, main_arg7, main_arg8, main_arg9, main_arg10, main_arg11, main_arg12]
/-- … after region 1, -/
abbrev L7 : List (Ref sig .tc) := [main_v3, main_v6, main_v31, main_arg2, main_arg6, main_arg7, main_arg8, main_arg9, main_arg10, main_arg11, main_arg12]
/-- … after region 2. -/
abbrev L10 : List (Ref sig .tc) := [main_v3, main_v6, main_v31, main_arg2, main_arg8, main_arg9, main_arg10, main_arg11, main_arg12]

theorem agree_W4 (c : Dev nD) : Agree m ρ L3 c (W4 m ρ c) := fun r hr =>
  W4_of_ne m ρ c r ((by decide : ∀ r ∈ L3, ∀ w, Pipeline.arrRef spec0 w ≠ r) r hr)
theorem agree_W5 (c : Dev nD) : Agree m ρ L3 c (W5 m ρ c) := fun r hr =>
  (keep_hostOps1 _ r ((by decide : ∀ r ∈ L3, r ∉ hostOps1_W) r hr)).trans (agree_W4 m ρ c r hr)
theorem agree_W6 (c : Dev nD) : Agree m ρ L3 c (W6 m ρ c) := fun r hr =>
  (keep_hostOps1_1 _ r ((by decide : ∀ r ∈ L3, r ∉ hostOps1_1_W) r hr)).trans (agree_W5 m ρ c r hr)
theorem agree_W7 (c : Dev nD) : Agree m ρ L7 c (W7 m ρ c) := fun r hr =>
  (W7_of_ne m ρ c r ((by decide : ∀ r ∈ L7, ∀ w, Pipeline.arrRef spec1 w ≠ r) r hr)).trans
    (agree_W6 m ρ c r ((by decide : ∀ r ∈ L7, r ∈ L3) r hr))
theorem agree_W8 (c : Dev nD) : Agree m ρ L7 c (W8 m ρ c) := fun r hr =>
  (keep_hostOps2 _ r ((by decide : ∀ r ∈ L7, r ∉ hostOps2_W) r hr)).trans (agree_W7 m ρ c r hr)
theorem agree_W9 (c : Dev nD) : Agree m ρ L7 c (W9 m ρ c) := fun r hr =>
  (keep_hostOps2_1 _ r ((by decide : ∀ r ∈ L7, r ∉ hostOps2_1_W) r hr)).trans (agree_W8 m ρ c r hr)
theorem agree_W10 (c : Dev nD) : Agree m ρ L10 c (W10 m ρ c) := fun r hr =>
  (W10_of_ne m ρ c r ((by decide : ∀ r ∈ L10, ∀ w, Pipeline.arrRef spec2 w ≠ r) r hr)).trans
    (agree_W9 m ρ c r ((by decide : ∀ r ∈ L10, r ∈ L7) r hr))
theorem agree_W11 (c : Dev nD) : Agree m ρ L10 c (W11 m ρ c) := fun r hr =>
  (keep_hostOps3 _ r ((by decide : ∀ r ∈ L10, r ∉ hostOps3_W) r hr)).trans (agree_W10 m ρ c r hr)
theorem agree_W12 (c : Dev nD) : Agree m ρ L10 c (W12 m ρ c) := fun r hr =>
  (keep_hostOps3_1 _ r ((by decide : ∀ r ∈ L10, r ∉ hostOps3_1_W) r hr)).trans (agree_W11 m ρ c r hr)

/-- An argument no stretch before region 0 writes, read at a later boundary that agrees with region 0's entry. -/
theorem arg_of_agree {L : List (Ref sig .tc)} {c : Dev nD} {W : Valuation τ sig (Elt Ideal)} (h : Agree m ρ L c W)
    (r : Ref sig .tc) (hr : r ∈ L) (h0 : r ∉ hostOps0_W) (h1 : r ∉ hostOps0_1_W) (h2 : r ∉ hostOps0_2_W) :
    W (Proc.devRef .tc r) = m ((c : Thread nD τ).loc r) :=
  (h r hr).trans (W3_keep m ρ c r h0 h1 h2)

/-- After region 0: the first dense product. -/
theorem W4_v32 (c : Dev nD) : W4 m ρ c (Proc.devRef .tc main_v32) = Dense.prod (m ((c : Thread nD τ).loc main_arg0)) (m ((c : Thread nD τ).loc main_arg3)) := by
  refine (W4_arr m ρ c 2).trans ((Matmul0.region_array (V3 m ρ) c).trans ?_)
  rw [show V3 m ρ c main_arg0 = (m ((c : Thread nD τ).loc main_arg0)) from W3_keep m ρ c main_arg0 (by decide) (by decide) (by decide),
    show V3 m ρ c main_arg3 = (m ((c : Thread nD τ).loc main_arg3)) from W3_keep m ρ c main_arg3 (by decide) (by decide) (by decide)]

/-- At region 1's entry: the first layer's output. -/
theorem W6_v49 (c : Dev nD) : W6 m ρ c (Proc.devRef .tc main_v49) = (layer (Dense.prod (m ((c : Thread nD τ).loc main_arg0)) (m ((c : Thread nD τ).loc main_arg3))) (src (m ((c : Thread nD τ).loc main_arg1))) (dst (m ((c : Thread nD τ).loc main_arg1))) (norm (src (m ((c : Thread nD τ).loc main_arg1))) (dst (m ((c : Thread nD τ).loc main_arg1)))) (m ((c : Thread nD τ).loc main_arg4))) := by
  refine (layer_stretch1 (W4 m ρ c)).trans ?_
  rw [W4_v32 m ρ c,
    show W4 m ρ c (Proc.devRef .tc main_v3) = (src (m ((c : Thread nD τ).loc main_arg1))) from (agree_W4 m ρ c main_v3 (by decide)).trans (W3_v3 m ρ c),
    show W4 m ρ c (Proc.devRef .tc main_v6) = (dst (m ((c : Thread nD τ).loc main_arg1))) from (agree_W4 m ρ c main_v6 (by decide)).trans (W3_v6 m ρ c),
    show W4 m ρ c (Proc.devRef .tc main_v31) = (norm (src (m ((c : Thread nD τ).loc main_arg1))) (dst (m ((c : Thread nD τ).loc main_arg1)))) from (agree_W4 m ρ c main_v31 (by decide)).trans (W3_v31 m ρ c),
    show W4 m ρ c (Proc.devRef .tc main_arg4) = (m ((c : Thread nD τ).loc main_arg4)) from arg_of_agree m ρ (agree_W4 m ρ c) main_arg4 (by decide) (by decide) (by decide) (by decide)]

/-- After region 1: the second dense product. -/
theorem W7_v50 (c : Dev nD) : W7 m ρ c (Proc.devRef .tc main_v50) = Dense.prod (layer (Dense.prod (m ((c : Thread nD τ).loc main_arg0)) (m ((c : Thread nD τ).loc main_arg3))) (src (m ((c : Thread nD τ).loc main_arg1))) (dst (m ((c : Thread nD τ).loc main_arg1))) (norm (src (m ((c : Thread nD τ).loc main_arg1))) (dst (m ((c : Thread nD τ).loc main_arg1)))) (m ((c : Thread nD τ).loc main_arg4))) (m ((c : Thread nD τ).loc main_arg5)) := by
  refine (W7_arr m ρ c 2).trans ((Matmul1.region_array (V6 m ρ) c).trans ?_)
  rw [show V6 m ρ c main_v49 = (layer (Dense.prod (m ((c : Thread nD τ).loc main_arg0)) (m ((c : Thread nD τ).loc main_arg3))) (src (m ((c : Thread nD τ).loc main_arg1))) (dst (m ((c : Thread nD τ).loc main_arg1))) (norm (src (m ((c : Thread nD τ).loc main_arg1))) (dst (m ((c : Thread nD τ).loc main_arg1)))) (m ((c : Thread nD τ).loc main_arg4))) from W6_v49 m ρ c,
    show V6 m ρ c main_arg5 = (m ((c : Thread nD τ).loc main_arg5)) from arg_of_agree m ρ (agree_W6 m ρ c) main_arg5 (by decide) (by decide) (by decide) (by decide)]

/-- At region 2's entry: the second layer's output. -/
theorem W9_v67 (c : Dev nD) : W9 m ρ c (Proc.devRef .tc main_v67) = (layer (Dense.prod (layer (Dense.prod (m ((c : Thread nD τ).loc main_arg0)) (m ((c : Thread nD τ).loc main_arg3))) (src (m ((c : Thread nD τ).loc main_arg1))) (dst (m ((c : Thread nD τ).loc main_arg1))) (norm (src (m ((c : Thread nD τ).loc main_arg1))) (dst (m ((c : Thread nD τ).loc main_arg1)))) (m ((c : Thread nD τ).loc main_arg4))) (m ((c : Thread nD τ).loc main_arg5))) (src (m ((c : Thread nD τ).loc main_arg1))) (dst (m ((c : Thread nD τ).loc main_arg1))) (norm (src (m ((c : Thread nD τ).loc main_arg1))) (dst (m ((c : Thread nD τ).loc main_arg1)))) (m ((c : Thread nD τ).loc main_arg6))) := by
  refine (layer_stretch2 (W7 m ρ c)).trans ?_
  rw [W7_v50 m ρ c,
    show W7 m ρ c (Proc.devRef .tc main_v3) = (src (m ((c : Thread nD τ).loc main_arg1))) from (agree_W7 m ρ c main_v3 (by decide)).trans (W3_v3 m ρ c),
    show W7 m ρ c (Proc.devRef .tc main_v6) = (dst (m ((c : Thread nD τ).loc main_arg1))) from (agree_W7 m ρ c main_v6 (by decide)).trans (W3_v6 m ρ c),
    show W7 m ρ c (Proc.devRef .tc main_v31) = (norm (src (m ((c : Thread nD τ).loc main_arg1))) (dst (m ((c : Thread nD τ).loc main_arg1)))) from (agree_W7 m ρ c main_v31 (by decide)).trans (W3_v31 m ρ c),
    show W7 m ρ c (Proc.devRef .tc main_arg6) = (m ((c : Thread nD τ).loc main_arg6)) from arg_of_agree m ρ (agree_W7 m ρ c) main_arg6 (by decide) (by decide) (by decide) (by decide)]

/-- After region 2: the third dense product. -/
theorem W10_v68 (c : Dev nD) : W10 m ρ c (Proc.devRef .tc main_v68) = Dense.prod (layer (Dense.prod (layer (Dense.prod (m ((c : Thread nD τ).loc main_arg0)) (m ((c : Thread nD τ).loc main_arg3))) (src (m ((c : Thread nD τ).loc main_arg1))) (dst (m ((c : Thread nD τ).loc main_arg1))) (norm (src (m ((c : Thread nD τ).loc main_arg1))) (dst (m ((c : Thread nD τ).loc main_arg1)))) (m ((c : Thread nD τ).loc main_arg4))) (m ((c : Thread nD τ).loc main_arg5))) (src (m ((c : Thread nD τ).loc main_arg1))) (dst (m ((c : Thread nD τ).loc main_arg1))) (norm (src (m ((c : Thread nD τ).loc main_arg1))) (dst (m ((c : Thread nD τ).loc main_arg1)))) (m ((c : Thread nD τ).loc main_arg6))) (m ((c : Thread nD τ).loc main_arg7)) := by
  refine (W10_arr m ρ c 2).trans ((Matmul2.region_array (V9 m ρ) c).trans ?_)
  rw [show V9 m ρ c main_v67 = (layer (Dense.prod (layer (Dense.prod (m ((c : Thread nD τ).loc main_arg0)) (m ((c : Thread nD τ).loc main_arg3))) (src (m ((c : Thread nD τ).loc main_arg1))) (dst (m ((c : Thread nD τ).loc main_arg1))) (norm (src (m ((c : Thread nD τ).loc main_arg1))) (dst (m ((c : Thread nD τ).loc main_arg1)))) (m ((c : Thread nD τ).loc main_arg4))) (m ((c : Thread nD τ).loc main_arg5))) (src (m ((c : Thread nD τ).loc main_arg1))) (dst (m ((c : Thread nD τ).loc main_arg1))) (norm (src (m ((c : Thread nD τ).loc main_arg1))) (dst (m ((c : Thread nD τ).loc main_arg1)))) (m ((c : Thread nD τ).loc main_arg6))) from W9_v67 m ρ c,
    show V9 m ρ c main_arg7 = (m ((c : Thread nD τ).loc main_arg7)) from arg_of_agree m ρ (agree_W9 m ρ c) main_arg7 (by decide) (by decide) (by decide) (by decide)]

/-- Before the last stretch: the third layer's output. -/
theorem W12_v85 (c : Dev nD) : W12 m ρ c (Proc.devRef .tc main_v85) = (layer (Dense.prod (layer (Dense.prod (layer (Dense.prod (m ((c : Thread nD τ).loc main_arg0)) (m ((c : Thread nD τ).loc main_arg3))) (src (m ((c : Thread nD τ).loc main_arg1))) (dst (m ((c : Thread nD τ).loc main_arg1))) (norm (src (m ((c : Thread nD τ).loc main_arg1))) (dst (m ((c : Thread nD τ).loc main_arg1)))) (m ((c : Thread nD τ).loc main_arg4))) (m ((c : Thread nD τ).loc main_arg5))) (src (m ((c : Thread nD τ).loc main_arg1))) (dst (m ((c : Thread nD τ).loc main_arg1))) (norm (src (m ((c : Thread nD τ).loc main_arg1))) (dst (m ((c : Thread nD τ).loc main_arg1)))) (m ((c : Thread nD τ).loc main_arg6))) (m ((c : Thread nD τ).loc main_arg7))) (src (m ((c : Thread nD τ).loc main_arg1))) (dst (m ((c : Thread nD τ).loc main_arg1))) (norm (src (m ((c : Thread nD τ).loc main_arg1))) (dst (m ((c : Thread nD τ).loc main_arg1)))) (m ((c : Thread nD τ).loc main_arg8))) := by
  refine (layer_stretch3 (W10 m ρ c)).trans ?_
  rw [W10_v68 m ρ c,
    show W10 m ρ c (Proc.devRef .tc main_v3) = (src (m ((c : Thread nD τ).loc main_arg1))) from (agree_W10 m ρ c main_v3 (by decide)).trans (W3_v3 m ρ c),
    show W10 m ρ c (Proc.devRef .tc main_v6) = (dst (m ((c : Thread nD τ).loc main_arg1))) from (agree_W10 m ρ c main_v6 (by decide)).trans (W3_v6 m ρ c),
    show W10 m ρ c (Proc.devRef .tc main_v31) = (norm (src (m ((c : Thread nD τ).loc main_arg1))) (dst (m ((c : Thread nD τ).loc main_arg1)))) from (agree_W10 m ρ c main_v31 (by decide)).trans (W3_v31 m ρ c),
    show W10 m ρ c (Proc.devRef .tc main_arg8) = (m ((c : Thread nD τ).loc main_arg8)) from arg_of_agree m ρ (agree_W10 m ρ c) main_arg8 (by decide) (by decide) (by decide) (by decide)]

/-- THE RESULT: after region 3 the result array is the classifier body's arithmetic of the pooled third-layer output,
    the classifier's weights and its biases as rows: the network's function over the blockwise product and that body. -/
theorem kernel_value (c : Dev nD) : W14 m ρ c (Proc.devRef .tc main_v100)
    = forward (F := Ideal) Dense.prod
        (fun p w1 b1 w2 b2 => k3_pay1 (F := Ideal) p w1 (shapeCast S1x128 b1 shapeCasts_S128_S1x128) w2 (shapeCast S1x16 b2 shapeCasts_S16_S1x16))
        (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W14_arr m ρ c 5).trans ((Classifier.region3_array (V13 m ρ) c).trans ?_)
  rw [show V13 m ρ c main_v97 = meanPool (layer (Dense.prod (layer (Dense.prod (layer (Dense.prod (m ((c : Thread nD τ).loc main_arg0)) (m ((c : Thread nD τ).loc main_arg3))) (src (m ((c : Thread nD τ).loc main_arg1))) (dst (m ((c : Thread nD τ).loc main_arg1))) (norm (src (m ((c : Thread nD τ).loc main_arg1))) (dst (m ((c : Thread nD τ).loc main_arg1)))) (m ((c : Thread nD τ).loc main_arg4))) (m ((c : Thread nD τ).loc main_arg5))) (src (m ((c : Thread nD τ).loc main_arg1))) (dst (m ((c : Thread nD τ).loc main_arg1))) (norm (src (m ((c : Thread nD τ).loc main_arg1))) (dst (m ((c : Thread nD τ).loc main_arg1)))) (m ((c : Thread nD τ).loc main_arg6))) (m ((c : Thread nD τ).loc main_arg7))) (src (m ((c : Thread nD τ).loc main_arg1))) (dst (m ((c : Thread nD τ).loc main_arg1))) (norm (src (m ((c : Thread nD τ).loc main_arg1))) (dst (m ((c : Thread nD τ).loc main_arg1)))) (m ((c : Thread nD τ).loc main_arg8))) (m ((c : Thread nD τ).loc main_arg2)) from by
        refine (s32_v97 (W12 m ρ c)).trans ?_
        rw [W12_v85 m ρ c, show W12 m ρ c (Proc.devRef .tc main_arg2) = (m ((c : Thread nD τ).loc main_arg2)) from arg_of_agree m ρ (agree_W12 m ρ c) main_arg2 (by decide) (by decide) (by decide) (by decide)],
    show V13 m ρ c main_arg9 = (m ((c : Thread nD τ).loc main_arg9)) from (keep_hostOps3_2 _ main_arg9 (by decide)).trans (arg_of_agree m ρ (agree_W12 m ρ c) main_arg9 (by decide) (by decide) (by decide) (by decide)),
    show V13 m ρ c main_v98 = shapeCast S1x128 (m ((c : Thread nD τ).loc main_arg10)) shapeCasts_S128_S1x128 from by
        refine (s32_v98 (W12 m ρ c)).trans ?_
        rw [show W12 m ρ c (Proc.devRef .tc main_arg10) = (m ((c : Thread nD τ).loc main_arg10)) from arg_of_agree m ρ (agree_W12 m ρ c) main_arg10 (by decide) (by decide) (by decide) (by decide)],
    show V13 m ρ c main_arg11 = (m ((c : Thread nD τ).loc main_arg11)) from (keep_hostOps3_2 _ main_arg11 (by decide)).trans (arg_of_agree m ρ (agree_W12 m ρ c) main_arg11 (by decide) (by decide) (by decide) (by decide)),
    show V13 m ρ c main_v99 = shapeCast S1x16 (m ((c : Thread nD τ).loc main_arg12)) shapeCasts_S16_S1x16 from by
        refine (s32_v99 (W12 m ρ c)).trans ?_
        rw [show W12 m ρ c (Proc.devRef .tc main_arg12) = (m ((c : Thread nD τ).loc main_arg12)) from arg_of_agree m ρ (agree_W12 m ρ c) main_arg12 (by decide) (by decide) (by decide) (by decide)]]
  rfl

end Cert.KernelIdeal.Walk

end
-- ==== Proof.lean ====
/-
  The certificate of a three-layer graph convolution network with a pooled classifier: the kernel program computes the
  three dense products  h · W  in Pallas regions of ten row blocks each and the classifier  relu(p · W1 + b1) · W2 + b2
  in a fourth region, everything else (self-loops, degrees, edge weights, gather / scale / scatter-add, bias, relu,
  mean pooling) in host operations; the reference does the same host operations around plain dot_generals.

  At the ideal values (extended reals, exact operations) both programs end at ONE function of the thirteen arguments,
  `Spec.forward`: the kernel at `forward` over the blockwise product's whole-array function and the classifier body's
  arithmetic (Walk.lean, over RunResult.lean, Matmul0/1/2.lean and Classifier.lean), the reference at `forward` over
  its dot_general and its own classifier term (RefValue.lean over the reference's run). The two agree because a row
  block of a product is a block of the whole product and a product accumulated into zero is the host's product
  (Dense.lean), and because the classifier body is the reference's classifier term (Classifier.lean). No law of real
  arithmetic beyond  0 + x = x  inside those readings is used, so the finiteness of the inputs is never opened.
  The three frames are the generated ones (the reference's is its run with the result dropped); the idealization
  rewrote nothing, so `preserves` is trivial.
-/
import proofs.«125149_j37984690766193_1_alg».proof.Defs
import proofs.«125149_j37984690766193_1_alg».proof.Proof.Gen.Kernel
import proofs.«125149_j37984690766193_1_alg».proof.Proof.Gen.Kernel.Skeleton
import proofs.«125149_j37984690766193_1_alg».proof.Proof.Gen.Kernel.Launch
import proofs.«125149_j37984690766193_1_alg».proof.Proof.Gen.Kernel.Points
import proofs.«125149_j37984690766193_1_alg».proof.Proof.Gen.Kernel.Frame
import proofs.«125149_j37984690766193_1_alg».proof.Proof.Gen.KernelIdeal
import proofs.«125149_j37984690766193_1_alg».proof.Proof.Gen.KernelIdeal.Skeleton
import proofs.«125149_j37984690766193_1_alg».proof.Proof.Gen.KernelIdeal.Launch
import proofs.«125149_j37984690766193_1_alg».proof.Proof.Gen.KernelIdeal.Points
import proofs.«125149_j37984690766193_1_alg».proof.Proof.Gen.KernelIdeal.Frame
import proofs.«125149_j37984690766193_1_alg».proof.Proof.Gen.ReferenceIdeal
import proofs.«125149_j37984690766193_1_alg».proof.Proof.Gen.Pre_finite_inputs
import proofs.«125149_j37984690766193_1_alg».proof.Proof.RunResult
import proofs.«125149_j37984690766193_1_alg».proof.Proof.RefRunP
import proofs.«125149_j37984690766193_1_alg».proof.Proof.RefValue
import proofs.«125149_j37984690766193_1_alg».proof.Proof.Dense
import proofs.«125149_j37984690766193_1_alg».proof.Proof.Classifier
import proofs.«125149_j37984690766193_1_alg».proof.Proof.Walk
import Idealize.ShloMosaic.Adequacy
import Idealize.ShloMosaic.Init

set_option maxRecDepth 16384

noncomputable section

namespace Cert.Proof

open Idealize.ShloMosaic Idealize.ShloMosaic.TcCoe Idealize.SL.Sem
open Cert.ReferenceIdeal.Spec

/-- The classifier region's arithmetic, on biases entering as vectors. -/
def clsK (p : (⟨Cert.ReferenceIdeal.S64x256, .f32⟩ : BufTy).Contents (Elt Ideal)) (w1 : (⟨Cert.ReferenceIdeal.S256x128, .f32⟩ : BufTy).Contents (Elt Ideal)) (b1 : (⟨Cert.ReferenceIdeal.S128, .f32⟩ : BufTy).Contents (Elt Ideal)) (w2 : (⟨Cert.ReferenceIdeal.S128x16, .f32⟩ : BufTy).Contents (Elt Ideal)) (b2 : (⟨Cert.ReferenceIdeal.S16, .f32⟩ : BufTy).Contents (Elt Ideal)) : (⟨Cert.ReferenceIdeal.S64x16, .f32⟩ : BufTy).Contents (Elt Ideal) :=
  Cert.KernelIdeal.Gen.k3_pay1 (F := Ideal) p w1 (shapeCast Cert.KernelIdeal.S1x128 b1 Cert.KernelIdeal.Gen.shapeCasts_S128_S1x128) w2 (shapeCast Cert.KernelIdeal.S1x16 b2 Cert.KernelIdeal.Gen.shapeCasts_S16_S1x16)

/-- The network over the kernel's pieces is the network over the reference's: the blockwise product's whole-array
    function is the dot_general, the classifier body is the reference's classifier term. -/
theorem forward_eq (x : (⟨Cert.ReferenceIdeal.S50000x256, .f32⟩ : BufTy).Contents (Elt Ideal)) (ei : (⟨Cert.ReferenceIdeal.S2x600000, .i32⟩ : BufTy).Contents (Elt Ideal)) (batch : (⟨Cert.ReferenceIdeal.S50000, .i32⟩ : BufTy).Contents (Elt Ideal))
    (W0 : (⟨Cert.ReferenceIdeal.S256x256, .f32⟩ : BufTy).Contents (Elt Ideal)) (b0 : (⟨Cert.ReferenceIdeal.S256, .f32⟩ : BufTy).Contents (Elt Ideal)) (W1 : (⟨Cert.ReferenceIdeal.S256x256, .f32⟩ : BufTy).Contents (Elt Ideal)) (b1 : (⟨Cert.ReferenceIdeal.S256, .f32⟩ : BufTy).Contents (Elt Ideal))
    (W2 : (⟨Cert.ReferenceIdeal.S256x256, .f32⟩ : BufTy).Contents (Elt Ideal)) (b2 : (⟨Cert.ReferenceIdeal.S256, .f32⟩ : BufTy).Contents (Elt Ideal))
    (cW1 : (⟨Cert.ReferenceIdeal.S256x128, .f32⟩ : BufTy).Contents (Elt Ideal)) (cb1 : (⟨Cert.ReferenceIdeal.S128, .f32⟩ : BufTy).Contents (Elt Ideal)) (cW2 : (⟨Cert.ReferenceIdeal.S128x16, .f32⟩ : BufTy).Contents (Elt Ideal)) (cb2 : (⟨Cert.ReferenceIdeal.S16, .f32⟩ : BufTy).Contents (Elt Ideal)) :
    forward (F := Ideal) Cert.Dense.prod clsK x ei batch W0 b0 W1 b1 W2 b2 cW1 cb1 cW2 cb2
      = forward (F := Ideal) dense classify x ei batch W0 b0 W1 b1 W2 b2 cW1 cb1 cW2 cb2 := by
  have hmm : (Cert.Dense.prod : (⟨Cert.ReferenceIdeal.S50000x256, .f32⟩ : BufTy).Contents (Elt Ideal) → (⟨Cert.ReferenceIdeal.S256x256, .f32⟩ : BufTy).Contents (Elt Ideal) → (⟨Cert.ReferenceIdeal.S50000x256, .f32⟩ : BufTy).Contents (Elt Ideal)) = dense (F := Ideal) :=
    funext fun h => funext fun w => (Cert.Dense.prod_eq_dotGeneral h w).symm
  have hcls : clsK = classify (F := Ideal) :=
    funext fun p => funext fun w1 => funext fun b1 => funext fun w2 => funext fun b2 =>
      Cert.KernelIdeal.Classifier.pay_eq_reference p w1 b1 w2 b2
  rw [hmm, hcls]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- At the ideal values, from memories agreeing on the arguments, both programs run and end with the same result:
    the network's function of the arguments. -/
theorem algebraic : Cert.algebraic_KernelIdeal_ReferenceIdeal := by
  intro m ρ m' ρ' _ hagree
  refine ⟨fun c => Cert.KernelIdeal.Gen.W14 m ρ c (Proc.devRef .tc Cert.KernelIdeal.main_v100), Cert.KernelIdeal.Result.run_result m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v106 m' c
    = Cert.KernelIdeal.Gen.W14 m ρ c (Proc.devRef .tc Cert.KernelIdeal.main_v100)
  rw [Cert.ReferenceIdeal.RefValue.res_eq_forward, Cert.KernelIdeal.Walk.kernel_value,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  exact (forward_eq _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
